-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S100000x16 : Shape := ⟨2, ![100000, 16]⟩
abbrev S3200000x16 : Shape := ⟨2, ![3200000, 16]⟩
abbrev S100000 : Shape := ⟨1, ![100000]⟩
abbrev S32x10 : Shape := ⟨2, ![32, 10]⟩
abbrev S10 : Shape := ⟨1, ![10]⟩
abbrev S10x10 : Shape := ⟨2, ![10, 10]⟩
abbrev S10x5 : Shape := ⟨2, ![10, 5]⟩
abbrev S5 : Shape := ⟨1, ![5]⟩
abbrev S5x5 : Shape := ⟨2, ![5, 5]⟩
abbrev S5x1 : Shape := ⟨2, ![5, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S3200000x16 : S_.BroadcastsInDim S3200000x16 (![] : Fin 0 → Fin S3200000x16.rank)
  reducesTo_S3200000x16_S_d0_1 : S3200000x16.ReducesTo [0, 1] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S10x5 : S_.BroadcastsInDim S10x5 (![] : Fin 0 → Fin S10x5.rank)
  reducesTo_S10x5_S_d0_1 : S10x5.ReducesTo [0, 1] S_
  bcast_S_S5 : S_.BroadcastsInDim S5 (![] : Fin 0 → Fin S5.rank)
  reducesTo_S5_S_d0 : S5.ReducesTo [0] S_
  bcast_S_S5x5 : S_.BroadcastsInDim S5x5 (![] : Fin 0 → Fin S5x5.rank)
  reducesTo_S5x5_S_d0_1 : S5x5.ReducesTo [0, 1] S_
  bcast_S_S5x1 : S_.BroadcastsInDim S5x1 (![] : Fin 0 → Fin S5x1.rank)
  reducesTo_S5x1_S_d0_1 : S5x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S5x1 .f32) (main_v50 : FVec F S5x1 .f32) : IVec S_ 1 :=
  let main_v51 : IVec S5x1 1 := cmpf .olt main_v49 main_v50
  let main_c_19 : IVec S_ 1 := constantI S_ 1 1#1
  let main_v52 : IVec S_ 1 := (fun x v => Host.reduce IntOp.andi x v reducesTo_S5x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S5 .f32) (main_arg10 : FVec F S5x5 .f32) (main_arg11 : FVec F S5 .f32) (main_arg12 : FVec F S5x1 .f32) (main_arg13 : FVec F S1 .f32) (main_v33 : IVec S_ 1) : IVec S_ 1 :=
  let main_v34 : FVec F S5 .f32 := Host.absf main_arg9
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  let main_v39 : FVec F S5x5 .f32 := Host.absf main_arg10
  let main_cst_14 : FVec F S_ .f32 := constant S_ .f32 0x7F800000#32
  let main_v40 : FVec F S5x5 .f32 := broadcastInDim S5x5 ![] bcast_S_S5x5 main_cst_14
  let main_v41 : IVec S5x5 1 := cmpf .olt main_v39 main_v40
  let main_c_15 : IVec S_ 1 := constantI S_ 1 1#1
  let main_v42 : IVec S_ 1 := (fun x v => Host.reduce IntOp.andi x v reducesTo_S5x5_S_d0_1 h_S_) main_v41 main_c_15
  let main_v43 : IVec S_ 1 := andi main_v38 main_v42
  let main_v44 : FVec F S5 .f32 := Host.absf main_arg11
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  let main_v49 : FVec F S5x1 .f32 := Host.absf main_arg12
  let main_cst_18 : FVec F S_ .f32 := constant S_ .f32 0x7F800000#32
  let main_v50 : FVec F S5x1 .f32 := broadcastInDim S5x1 ![] bcast_S_S5x1 main_cst_18
  fn_part3 (F := F) main_arg13 main_v48 main_v49 main_v50

def fn_part1 {F : FTy → Type} [FloatOps F] (main_arg6 : FVec F S10x10 .f32) (main_arg7 : FVec F S10 .f32) (main_arg8 : FVec F S10x5 .f32) (main_arg9 : FVec F S5 .f32) (main_arg10 : FVec F S5x5 .f32) (main_arg11 : FVec F S5 .f32) (main_arg12 : FVec F S5x1 .f32) (main_arg13 : FVec F S1 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x10 .f32 := Host.absf main_arg6
  let main_cst_6 : FVec F S_ .f32 := constant S_ .f32 0x7F800000#32
  let main_v20 : FVec F S10x10 .f32 := broadcastInDim S10x10 ![] bcast_S_S10x10 main_cst_6
  let main_v21 : IVec S10x10 1 := cmpf .olt main_v19 main_v20
  let main_c_7 : IVec S_ 1 := constantI S_ 1 1#1
  let main_v22 : IVec S_ 1 := (fun x v => Host.reduce IntOp.andi x v reducesTo_S10x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x5 .f32 := Host.absf main_arg8
  let main_cst_10 : FVec F S_ .f32 := constant S_ .f32 0x7F800000#32
  let main_v30 : FVec F S10x5 .f32 := broadcastInDim S10x5 ![] bcast_S_S10x5 main_cst_10
  let main_v31 : IVec S10x5 1 := cmpf .olt main_v29 main_v30
  let main_c_11 : IVec S_ 1 := constantI S_ 1 1#1
  let main_v32 : IVec S_ 1 := (fun x v => Host.reduce IntOp.andi x v reducesTo_S10x5_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : IVec S2x3200000 32) (main_arg1 : FVec F S100000x16 .f32) (main_arg2 : FVec F S3200000x16 .f32) (main_arg3 : IVec S100000 32) (main_arg4 : FVec F S32x10 .f32) (main_arg5 : FVec F S10 .f32) (main_arg6 : FVec F S10x10 .f32) (main_arg7 : FVec F S10 .f32) (main_arg8 : FVec F S10x5 .f32) (main_arg9 : FVec F S5 .f32) (main_arg10 : FVec F S5x5 .f32) (main_arg11 : FVec F S5 .f32) (main_arg12 : FVec F S5x1 .f32) (main_arg13 : FVec F S1 .f32) : IVec S_ 1 :=
  let main_v0 : FVec F S100000x16 .f32 := Host.absf main_arg1
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S3200000x16 .f32 := Host.absf main_arg2
  let main_cst_0 : FVec F S_ .f32 := constant S_ .f32 0x7F800000#32
  let main_v5 : FVec F S3200000x16 .f32 := broadcastInDim S3200000x16 ![] bcast_S_S3200000x16 main_cst_0
  let main_v6 : IVec S3200000x16 1 := cmpf .olt main_v4 main_v5
  let main_c_1 : IVec S_ 1 := constantI S_ 1 1#1
  let main_v7 : IVec S_ 1 := (fun x v => Host.reduce IntOp.andi x v reducesTo_S3200000x16_S_d0_1 h_S_) main_v6 main_c_1
  let main_v8 : IVec S_ 1 := andi main_v3 main_v7
  let main_v9 : FVec F S32x10 .f32 := Host.absf main_arg4
  let main_cst_2 : FVec F S_ .f32 := constant S_ .f32 0x7F800000#32
  let main_v10 : FVec F S32x10 .f32 := broadcastInDim S32x10 ![] bcast_S_S32x10 main_cst_2
  let main_v11 : IVec S32x10 1 := cmpf .olt main_v9 main_v10
  let main_c_3 : IVec S_ 1 := constantI S_ 1 1#1
  let main_v12 : IVec S_ 1 := (fun x v => Host.reduce IntOp.andi x v reducesTo_S32x10_S_d0_1 h_S_) main_v11 main_c_3
  let main_v13 : IVec S_ 1 := andi main_v8 main_v12
  let main_v14 : FVec F S10 .f32 := Host.absf main_arg5
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg6 main_arg7 main_arg8 main_arg9 main_arg10 main_arg11 main_arg12 main_arg13 main_v13 main_v16
-- ==== Kernel.lean ====
abbrev S2x3200000 : Shape := ⟨2, ![2, 3200000]⟩
abbrev S100000x16 : Shape := ⟨2, ![100000, 16]⟩
abbrev S3200000x16 : Shape := ⟨2, ![3200000, 16]⟩
abbrev S100000 : Shape := ⟨1, ![100000]⟩
abbrev S32x10 : Shape := ⟨2, ![32, 10]⟩
abbrev S10 : Shape := ⟨1, ![10]⟩
abbrev S10x10 : Shape := ⟨2, ![10, 10]⟩
abbrev S10x5 : Shape := ⟨2, ![10, 5]⟩
abbrev S5 : Shape := ⟨1, ![5]⟩
abbrev S5x5 : Shape := ⟨2, ![5, 5]⟩
abbrev S5x1 : Shape := ⟨2, ![5, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S16x10 : Shape := ⟨2, ![16, 10]⟩
abbrev S1x10 : Shape := ⟨2, ![1, 10]⟩
abbrev S3200000x10 : Shape := ⟨2, ![3200000, 10]⟩
abbrev S6400x16 : Shape := ⟨2, ![6400, 16]⟩
abbrev S6400x10 : Shape := ⟨2, ![6400, 10]⟩
abbrev S100000x10 : Shape := ⟨2, ![100000, 10]⟩
abbrev S1x5 : Shape := ⟨2, ![1, 5]⟩
abbrev S100000x5 : Shape := ⟨2, ![100000, 5]⟩
abbrev S10000x10 : Shape := ⟨2, ![10000, 10]⟩
abbrev S10000x5 : Shape := ⟨2, ![10000, 5]⟩
abbrev S1000x5 : Shape := ⟨2, ![1000, 5]⟩
abbrev S100000x1 : Shape := ⟨2, ![100000, 1]⟩
abbrev S1000x1 : Shape := ⟨2, ![1000, 1]⟩
abbrev S1x1 : Shape := ⟨2, ![1, 1]⟩

abbrev nBuf : Space → Nat
  | .hbm => 51
  | .vmem => 17
  | .smem => 0
  | _ => 0

abbrev bufTy : (tb : Table) → Fin (tcTables nBuf tb) → BufTy
  | .hbm, ⟨0, _⟩ => ⟨S2x3200000, .i32⟩
  | .hbm, ⟨1, _⟩ => ⟨S100000x16, .f32⟩
  | .hbm, ⟨2, _⟩ => ⟨S3200000x16, .f32⟩
  | .hbm, ⟨3, _⟩ => ⟨S100000, .i32⟩
  | .hbm, ⟨4, _⟩ => ⟨S32x10, .f32⟩
  | .hbm, ⟨5, _⟩ => ⟨S10, .f32⟩
  | .hbm, ⟨6, _⟩ => ⟨S10x10, .f32⟩
  | .hbm, ⟨7, _⟩ => ⟨S10, .f32⟩
  | .hbm, ⟨8, _⟩ => ⟨S10x5, .f32⟩
  | .hbm, ⟨9, _⟩ => ⟨S5, .f32⟩
  | .hbm, ⟨10, _⟩ => ⟨S5x5, .f32⟩
  | .hbm, ⟨11, _⟩ => ⟨S5, .f32⟩
  | .hbm, ⟨12, _⟩ => ⟨S5x1, .f32⟩
  | .hbm, ⟨13, _⟩ => ⟨S1, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x16, .f32⟩
  | .hbm, ⟨27, _⟩ => ⟨S16x10, .f32⟩
  | .hbm, ⟨28, _⟩ => ⟨S16x10, .f32⟩
  | .hbm, ⟨29, _⟩ => ⟨S1x10, .f32⟩
  | .hbm, ⟨30, _⟩ => ⟨S3200000x10, .f32⟩
  | .hbm, ⟨31, _⟩ => ⟨S_, .f32⟩
  | .hbm, ⟨32, _⟩ => ⟨S100000x10, .f32⟩
  | .hbm, ⟨33, _⟩ => ⟨S3200000x1, .i32⟩
  | .hbm, ⟨34, _⟩ => ⟨S100000x10, .f32⟩
  | .hbm, ⟨35, _⟩ => ⟨S1x10, .f32⟩
  | .hbm, ⟨36, _⟩ => ⟨S1x5, .f32⟩
  | .hbm, ⟨37, _⟩ => ⟨S100000x5, .f32⟩
  | .hbm, ⟨38, _⟩ => ⟨S_, .f32⟩
  | .hbm, ⟨39, _⟩ => ⟨S1000x5, .f32⟩
  | .hbm, ⟨40, _⟩ => ⟨S100000x1, .i32⟩
  | .hbm, ⟨41, _⟩ => ⟨S1000x5, .f32⟩
  | .hbm, ⟨42, _⟩ => ⟨S1000x5, .f32⟩
  | .hbm, ⟨43, _⟩ => ⟨S1x5, .f32⟩
  | .hbm, ⟨44, _⟩ => ⟨S1000x5, .f32⟩
  | .hbm, ⟨45, _⟩ => ⟨S1000x5, .f32⟩
  | .hbm, ⟨46, _⟩ => ⟨S1000x5, .f32⟩
  | .hbm, ⟨47, _⟩ => ⟨S1000x1, .f32⟩
  | .hbm, ⟨48, _⟩ => ⟨S1x1, .f32⟩
  | .hbm, ⟨49, _⟩ => ⟨S1000x1, .f32⟩
  | .hbm, ⟨50, _⟩ => ⟨S1000x1, .f32⟩
  | .local _ .vmem, ⟨0, _⟩ => ⟨S6400x16, .f32⟩
  | .local _ .vmem, ⟨1, _⟩ => ⟨S6400x16, .f32⟩
  | .local _ .vmem, ⟨2, _⟩ => ⟨S6400x16, .f32⟩
  | .local _ .vmem, ⟨3, _⟩ => ⟨S6400x16, .f32⟩
  | .local _ .vmem, ⟨4, _⟩ => ⟨S16x10, .f32⟩
  | .local _ .vmem, ⟨5, _⟩ => ⟨S16x10, .f32⟩
  | .local _ .vmem, ⟨6, _⟩ => ⟨S1x10, .f32⟩
  | .local _ .vmem, ⟨7, _⟩ => ⟨S6400x10, .f32⟩
  | .local _ .vmem, ⟨8, _⟩ => ⟨S6400x10, .f32⟩
  | .local _ .vmem, ⟨9, _⟩ => ⟨S10000x10, .f32⟩
  | .local _ .vmem, ⟨10, _⟩ => ⟨S10000x10, .f32⟩
  | .local _ .vmem, ⟨11, _⟩ => ⟨S10x10, .f32⟩
  | .local _ .vmem, ⟨12, _⟩ => ⟨S1x10, .f32⟩
  | .local _ .vmem, ⟨13, _⟩ => ⟨S10x5, .f32⟩
  | .local _ .vmem, ⟨14, _⟩ => ⟨S1x5, .f32⟩
  | .local _ .vmem, ⟨15, _⟩ => ⟨S10000x5, .f32⟩
  | .local _ .vmem, ⟨16, _⟩ => ⟨S10000x5, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10x5 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x5 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S32x10_S16x10_0_0 : S32x10.Slices ![0, 0] S16x10
  slices_S32x10_S16x10_16_0 : S32x10.Slices ![16, 0] S16x10
  shapeCasts_S10_S1x10 : S10.ShapeCasts S1x10
  inb_S6400x16_S6400x16_0_0 : ∀ a, (![0, 0] : Fin 2 → Nat) a + S6400x16.size a ≤ S6400x16.size a
  h_S6400x16 : 0 < S6400x16.numel
  shapeCasts_S6400x16_S6400x16 : S6400x16.ShapeCasts S6400x16
  bitsLt_bf16_f32 : FTy.bits .bf16 < FTy.bits .f32
  inb_S16x10_S16x10_0_0 : ∀ a, (![0, 0] : Fin 2 → Nat) a + S16x10.size a ≤ S16x10.size a
  h_S16x10 : 0 < S16x10.numel
  shapeCasts_S16x10_S16x10 : S16x10.ShapeCasts S16x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S6400x10 : S1x10.Broadcasts S6400x10
  inb_S6400x10_S6400x10_0_0 : ∀ a, (![0, 0] : Fin 2 → Nat) a + S6400x10.size a ≤ S6400x10.size a
  h_S6400x10 : 0 < S6400x10.numel
  bcast_S_S100000x10 : S_.BroadcastsInDim S100000x10 (![] : Fin 0 → Fin S100000x10.rank)
  shapeCasts_S5_S1x5 : S5.ShapeCasts S1x5
  inb_S10000x10_S10000x10_0_0 : ∀ a, (![0, 0] : Fin 2 → Nat) a + S10000x10.size a ≤ S10000x10.size a
  h_S10000x10 : 0 < S10000x10.numel
  shapeCasts_S10000x10_S10000x10 : S10000x10.ShapeCasts S10000x10
  inb_S10x10_S10x10_0_0 : ∀ a, (![0, 0] : Fin 2 → Nat) a + S10x10.size a ≤ S10x10.size a
  h_S10x10 : 0 < S10x10.numel
  broadcasts_S1x10_S10000x10 : S1x10.Broadcasts S10000x10
  inb_S10x5_S10x5_0_0 : ∀ a, (![0, 0] : Fin 2 → Nat) a + S10x5.size a ≤ S10x5.size a
  h_S10x5 : 0 < S10x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  inb_S10000x5_S10000x5_0_0 : ∀ a, (![0, 0] : Fin 2 → Nat) a + S10000x5.size a ≤ S10000x5.size a
  h_S10000x5 : 0 < S10000x5.numel
  bcast_S_S1000x5 : S_.BroadcastsInDim S1000x5 (![] : Fin 0 → Fin S1000x5.rank)
  bcast_S100000_S100000x1_0 : S100000.BroadcastsInDim S100000x1 (![0] : Fin 1 → Fin S100000x1.rank)
  bcast_S5_S1x5_1 : S5.BroadcastsInDim S1x5 (![1] : Fin 1 → Fin S1x5.rank)
  bcast_S1x5_S1000x5_0_1 : S1x5.BroadcastsInDim S1000x5 (![0, 1] : Fin 2 → Fin S1000x5.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  gather_S100000x16_S3200000x1_S3200000x16_1_0_n_n_0_1_116_wf : GatherDims.WF S100000x16 S3200000x1 S3200000x16 [1] [0] [] [0] [] 1 ![1, 16]
  dot_S6400x16_S16x10_S6400x10_1_0_0_1_n_n_wf : DotDims.WF S6400x16 S16x10 S6400x10 [1] [0] [0] [1] [] []
  scatter_S100000x10_S3200000x1_S3200000x10_1_0_0_1_wf : ScatterDims.WF S100000x10 S3200000x1 S3200000x10 [1] [0] [0] 1
  dot_S10000x10_S10x10_S10000x10_1_0_0_1_n_n_wf : DotDims.WF S10000x10 S10x10 S10000x10 [1] [0] [0] [1] [] []
  dot_S10000x10_S10x5_S10000x5_1_0_0_1_n_n_wf : DotDims.WF S10000x10 S10x5 S10000x5 [1] [0] [0] [1] [] []
  scatter_S1000x5_S100000x1_S100000x5_1_0_0_1_wf : ScatterDims.WF S1000x5 S100000x1 S100000x5 [1] [0] [0] 1
  dot_S1000x5_S5x5_S1000x5_1_0_0_1_n_n_wf : DotDims.WF S1000x5 S5x5 S1000x5 [1] [0] [0] [1] [] []
  dot_S1000x5_S5x1_S1000x1_1_0_0_1_n_n_wf : DotDims.WF S1000x5 S5x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x16.size a ≤ S3200000x16.size a
  hwx0_0 : ∀ i : grid0.Coords, EltTy.bits .f32 = 32 ∨ (Rect.block (s := S3200000x16) S6400x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x16.size a ≤ S3200000x16.size a
  hwx0_1 : ∀ i : grid0.Coords, EltTy.bits .f32 = 32 ∨ (Rect.block (s := S3200000x16) S6400x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x10.size a ≤ S16x10.size a
  hwx0_2 : ∀ i : grid0.Coords, EltTy.bits .f32 = 32 ∨ (Rect.block (s := S16x10) S16x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x10.size a ≤ S16x10.size a
  hwx0_3 : ∀ i : grid0.Coords, EltTy.bits .f32 = 32 ∨ (Rect.block (s := S16x10) S16x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x10.size a ≤ S3200000x10.size a
  hwx0_5 : ∀ i : grid0.Coords, EltTy.bits .f32 = 32 ∨ (Rect.block (s := S3200000x10) S6400x10.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x10.size a ≤ S100000x10.size a
  hwx1_0 : ∀ i : grid1.Coords, EltTy.bits .f32 = 32 ∨ (Rect.block (s := S100000x10) S10000x10.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x10.size a ≤ S10x10.size a
  hwx1_1 : ∀ i : grid1.Coords, EltTy.bits .f32 = 32 ∨ (Rect.block (s := S10x10) S10x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10.size a ≤ S1x10.size a
  hwx1_2 : ∀ i : grid1.Coords, EltTy.bits .f32 = 32 ∨ (Rect.block (s := S1x10) S1x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10x5.size a ≤ S10x5.size a
  hwx1_3 : ∀ i : grid1.Coords, EltTy.bits .f32 = 32 ∨ (Rect.block (s := S10x5) S10x5.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x5.size a ≤ S1x5.size a
  hwx1_4 : ∀ i : grid1.Coords, EltTy.bits .f32 = 32 ∨ (Rect.block (s := S1x5) S1x5.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x5.size a ≤ S100000x5.size a
  hwx1_5 : ∀ i : grid1.Coords, EltTy.bits .f32 = 32 ∨ (Rect.block (s := S100000x5) S10000x5.size (cc1_transform_5 i) (hinb1_5 i)).WholeWords (EltTy.packing .f32)

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S6400x16_S16x10_S6400x10_1_0_0_1_n_n : DotDims S6400x16 S16x10 S6400x10 where
  lhsContracting := [1]
  rhsContracting := [0]
  lhsNonContracting := [0]
  rhsNonContracting := [1]
  lhsBatch := []
  rhsBatch := []
  wf := dot_S6400x16_S16x10_S6400x10_1_0_0_1_n_n_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S10000x10_S10x10_S10000x10_1_0_0_1_n_n : DotDims S10000x10 S10x10 S10000x10 where
  lhsContracting := [1]
  rhsContracting := [0]
  lhsNonContracting := [0]
  rhsNonContracting := [1]
  lhsBatch := []
  rhsBatch := []
  wf := dot_S10000x10_S10x10_S10000x10_1_0_0_1_n_n_wf
def dot_S10000x10_S10x5_S10000x5_1_0_0_1_n_n : DotDims S10000x10 S10x5 S10000x5 where
  lhsContracting := [1]
  rhsContracting := [0]
  lhsNonContracting := [0]
  rhsNonContracting := [1]
  lhsBatch := []
  rhsBatch := []
  wf := dot_S10000x10_S10x5_S10000x5_1_0_0_1_n_n_wf
def scatter_S1000x5_S100000x1_S100000x5_1_0_0_1 : ScatterDims S1000x5 S100000x1 S100000x5 where
  updateWindowDims := [1]
  insertedWindowDims := [0]
  scatterDimsToOperandDims := [0]
  indexVectorDim := 1
  wf := scatter_S1000x5_S100000x1_S100000x5_1_0_0_1_wf
def dot_S1000x5_S5x5_S1000x5_1_0_0_1_n_n : DotDims S1000x5 S5x5 S1000x5 where
  lhsContracting := [1]
  rhsContracting := [0]
  lhsNonContracting := [0]
  rhsNonContracting := [1]
  lhsBatch := []
  rhsBatch := []
  wf := dot_S1000x5_S5x5_S1000x5_1_0_0_1_n_n_wf
def dot_S1000x5_S5x1_S1000x1_1_0_0_1_n_n : DotDims S1000x5 S5x1 S1000x1 where
  lhsContracting := [1]
  rhsContracting := [0]
  lhsNonContracting := [0]
  rhsNonContracting := [1]
  lhsBatch := []
  rhsBatch := []
  wf := dot_S1000x5_S5x1_S1000x1_1_0_0_1_n_n_wf

abbrev win0_0 : Pipeline.Window sig grid0 :=
  Pipeline.Window.ofSpec (Memref.whole main_v10) S6400x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S16x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S16x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S6400x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S10000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S10x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S10x5.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S10000x5.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x3200000 : Shape := ⟨2, ![2, 3200000]⟩
abbrev S100000x16 : Shape := ⟨2, ![100000, 16]⟩
abbrev S3200000x16 : Shape := ⟨2, ![3200000, 16]⟩
abbrev S100000 : Shape := ⟨1, ![100000]⟩
abbrev S32x10 : Shape := ⟨2, ![32, 10]⟩
abbrev S10 : Shape := ⟨1, ![10]⟩
abbrev S10x10 : Shape := ⟨2, ![10, 10]⟩
abbrev S10x5 : Shape := ⟨2, ![10, 5]⟩
abbrev S5 : Shape := ⟨1, ![5]⟩
abbrev S5x5 : Shape := ⟨2, ![5, 5]⟩
abbrev S5x1 : Shape := ⟨2, ![5, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S3200000x10 : Shape := ⟨2, ![3200000, 10]⟩
abbrev S1x10 : Shape := ⟨2, ![1, 10]⟩
abbrev S100000x10 : Shape := ⟨2, ![100000, 10]⟩
abbrev S100000x5 : Shape := ⟨2, ![100000, 5]⟩
abbrev S1x5 : Shape := ⟨2, ![1, 5]⟩
abbrev S1000x5 : Shape := ⟨2, ![1000, 5]⟩
abbrev S100000x1 : Shape := ⟨2, ![100000, 1]⟩
abbrev S1000x1 : Shape := ⟨2, ![1000, 1]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S2x3200000, .i32⟩
  | .hbm, ⟨1, _⟩ => ⟨S100000x16, .f32⟩
  | .hbm, ⟨2, _⟩ => ⟨S3200000x16, .f32⟩
  | .hbm, ⟨3, _⟩ => ⟨S100000, .i32⟩
  | .hbm, ⟨4, _⟩ => ⟨S32x10, .f32⟩
  | .hbm, ⟨5, _⟩ => ⟨S10, .f32⟩
  | .hbm, ⟨6, _⟩ => ⟨S10x10, .f32⟩
  | .hbm, ⟨7, _⟩ => ⟨S10, .f32⟩
  | .hbm, ⟨8, _⟩ => ⟨S10x5, .f32⟩
  | .hbm, ⟨9, _⟩ => ⟨S5, .f32⟩
  | .hbm, ⟨10, _⟩ => ⟨S5x5, .f32⟩
  | .hbm, ⟨11, _⟩ => ⟨S5, .f32⟩
  | .hbm, ⟨12, _⟩ => ⟨S5x1, .f32⟩
  | .hbm, ⟨13, _⟩ => ⟨S1, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x16, .f32⟩
  | .hbm, ⟨27, _⟩ => ⟨S3200000x32, .f32⟩
  | .hbm, ⟨28, _⟩ => ⟨S3200000x10, .f32⟩
  | .hbm, ⟨29, _⟩ => ⟨S1x10, .f32⟩
  | .hbm, ⟨30, _⟩ => ⟨S3200000x10, .f32⟩
  | .hbm, ⟨31, _⟩ => ⟨S3200000x10, .f32⟩
  | .hbm, ⟨32, _⟩ => ⟨S3200000x10, .f32⟩
  | .hbm, ⟨33, _⟩ => ⟨S_, .f32⟩
  | .hbm, ⟨34, _⟩ => ⟨S100000x10, .f32⟩
  | .hbm, ⟨35, _⟩ => ⟨S3200000x1, .i32⟩
  | .hbm, ⟨36, _⟩ => ⟨S100000x10, .f32⟩
  | .hbm, ⟨37, _⟩ => ⟨S100000x10, .f32⟩
  | .hbm, ⟨38, _⟩ => ⟨S1x10, .f32⟩
  | .hbm, ⟨39, _⟩ => ⟨S100000x10, .f32⟩
  | .hbm, ⟨40, _⟩ => ⟨S100000x10, .f32⟩
  | .hbm, ⟨41, _⟩ => ⟨S100000x10, .f32⟩
  | .hbm, ⟨42, _⟩ => ⟨S100000x5, .f32⟩
  | .hbm, ⟨43, _⟩ => ⟨S1x5, .f32⟩
  | .hbm, ⟨44, _⟩ => ⟨S100000x5, .f32⟩
  | .hbm, ⟨45, _⟩ => ⟨S100000x5, .f32⟩
  | .hbm, ⟨46, _⟩ => ⟨S100000x5, .f32⟩
  | .hbm, ⟨47, _⟩ => ⟨S_, .f32⟩
  | .hbm, ⟨48, _⟩ => ⟨S1000x5, .f32⟩
  | .hbm, ⟨49, _⟩ => ⟨S100000x1, .i32⟩
  | .hbm, ⟨50, _⟩ => ⟨S1000x5, .f32⟩
  | .hbm, ⟨51, _⟩ => ⟨S1000x5, .f32⟩
  | .hbm, ⟨52, _⟩ => ⟨S1x5, .f32⟩
  | .hbm, ⟨53, _⟩ => ⟨S1000x5, .f32⟩
  | .hbm, ⟨54, _⟩ => ⟨S1000x5, .f32⟩
  | .hbm, ⟨55, _⟩ => ⟨S1000x5, .f32⟩
  | .hbm, ⟨56, _⟩ => ⟨S1000x1, .f32⟩
  | .hbm, ⟨57, _⟩ => ⟨S1x1, .f32⟩
  | .hbm, ⟨58, _⟩ => ⟨S1000x1, .f32⟩
  | .hbm, ⟨59, _⟩ => ⟨S1000x1, .f32⟩
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x16_S3200000x16_S3200000x32_d1 : Shape.Concatenates [S3200000x16, S3200000x16] S3200000x32 1
  bcast_S10_S1x10_1 : S10.BroadcastsInDim S1x10 (![1] : Fin 1 → Fin S1x10.rank)
  bcast_S1x10_S3200000x10_0_1 : S1x10.BroadcastsInDim S3200000x10 (![0, 1] : Fin 2 → Fin S3200000x10.rank)
  bcast_S_S100000x10 : S_.BroadcastsInDim S100000x10 (![] : Fin 0 → Fin S100000x10.rank)
  bcast_S1x10_S100000x10_0_1 : S1x10.BroadcastsInDim S100000x10 (![0, 1] : Fin 2 → Fin S100000x10.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  bcast_S_S1000x5 : S_.BroadcastsInDim S1000x5 (![] : Fin 0 → Fin S1000x5.rank)
  bcast_S100000_S100000x1_0 : S100000.BroadcastsInDim S100000x1 (![0] : Fin 1 → Fin S100000x1.rank)
  bcast_S1x5_S1000x5_0_1 : S1x5.BroadcastsInDim S1000x5 (![0, 1] : Fin 2 → Fin S1000x5.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  gather_S100000x16_S3200000x1_S3200000x16_1_0_n_n_0_1_116_wf : GatherDims.WF S100000x16 S3200000x1 S3200000x16 [1] [0] [] [0] [] 1 ![1, 16]
  dot_S3200000x32_S32x10_S3200000x10_1_0_0_1_n_n_wf : DotDims.WF S3200000x32 S32x10 S3200000x10 [1] [0] [0] [1] [] []
  scatter_S100000x10_S3200000x1_S3200000x10_1_0_0_1_wf : ScatterDims.WF S100000x10 S3200000x1 S3200000x10 [1] [0] [0] 1
  dot_S100000x10_S10x10_S100000x10_1_0_0_1_n_n_wf : DotDims.WF S100000x10 S10x10 S100000x10 [1] [0] [0] [1] [] []
  dot_S100000x10_S10x5_S100000x5_1_0_0_1_n_n_wf : DotDims.WF S100000x10 S10x5 S100000x5 [1] [0] [0] [1] [] []
  scatter_S1000x5_S100000x1_S100000x5_1_0_0_1_wf : ScatterDims.WF S1000x5 S100000x1 S100000x5 [1] [0] [0] 1
  dot_S1000x5_S5x5_S1000x5_1_0_0_1_n_n_wf : DotDims.WF S1000x5 S5x5 S1000x5 [1] [0] [0] [1] [] []
  dot_S1000x5_S5x1_S1000x1_1_0_0_1_n_n_wf : DotDims.WF S1000x5 S5x1 S1000x1 [1] [0] [0] [1] [] []

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S3200000x32_S32x10_S3200000x10_1_0_0_1_n_n : DotDims S3200000x32 S32x10 S3200000x10 where
  lhsContracting := [1]
  rhsContracting := [0]
  lhsNonContracting := [0]
  rhsNonContracting := [1]
  lhsBatch := []
  rhsBatch := []
  wf := dot_S3200000x32_S32x10_S3200000x10_1_0_0_1_n_n_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S100000x10_S10x10_S100000x10_1_0_0_1_n_n : DotDims S100000x10 S10x10 S100000x10 where
  lhsContracting := [1]
  rhsContracting := [0]
  lhsNonContracting := [0]
  rhsNonContracting := [1]
  lhsBatch := []
  rhsBatch := []
  wf := dot_S100000x10_S10x10_S100000x10_1_0_0_1_n_n_wf
def dot_S100000x10_S10x5_S100000x5_1_0_0_1_n_n : DotDims S100000x10 S10x5 S100000x5 where
  lhsContracting := [1]
  rhsContracting := [0]
  lhsNonContracting := [0]
  rhsNonContracting := [1]
  lhsBatch := []
  rhsBatch := []
  wf := dot_S100000x10_S10x5_S100000x5_1_0_0_1_n_n_wf
def scatter_S1000x5_S100000x1_S100000x5_1_0_0_1 : ScatterDims S1000x5 S100000x1 S100000x5 where
  updateWindowDims := [1]
  insertedWindowDims := [0]
  scatterDimsToOperandDims := [0]
  indexVectorDim := 1
  wf := scatter_S1000x5_S100000x1_S100000x5_1_0_0_1_wf
def dot_S1000x5_S5x5_S1000x5_1_0_0_1_n_n : DotDims S1000x5 S5x5 S1000x5 where
  lhsContracting := [1]
  rhsContracting := [0]
  lhsNonContracting := [0]
  rhsNonContracting := [1]
  lhsBatch := []
  rhsBatch := []
  wf := dot_S1000x5_S5x5_S1000x5_1_0_0_1_n_n_wf
def dot_S1000x5_S5x1_S1000x1_1_0_0_1_n_n : DotDims S1000x5 S5x1 S1000x1 where
  lhsContracting := [1]
  rhsContracting := [0]
  lhsNonContracting := [0]
  rhsNonContracting := [1]
  lhsBatch := []
  rhsBatch := []
  wf := dot_S1000x5_S5x1_S1000x1_1_0_0_1_n_n_wf

class Facts : Prop extends Facts₀ where

variable [Facts]
-- ==== Proof.KernelRun.lean ====
/-
  The idealized kernel's run with its result named.

  The program is five stretches in a row: host operations, the edge kernel's pipeline, host operations, the node
  kernel's pipeline, host operations. Every weakly fair execution runs them in that order, and the contents of every
  buffer at each boundary are a fold from the launch memory: a host stretch applies its operations, a pipeline leaves
  its output array at what its grid points wrote back and every other buffer as it found it. So at the end the result
  buffer holds the last fold's value at the result, and the argument arrays are as launched.
-/
import proofs.«159990_j64630667870284_2_alg».proof.Proof.Gen.KernelIdeal.Frame

set_option maxRecDepth 16384

noncomputable section

namespace Cert.GraphNet

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v32) = W5 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v32 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c)⟩)

end Cert.GraphNet

end
-- ==== Proof.Spec.lean ====
/-
  The two per-row maps of the network, as functions on the extended reals, for any number of rows.

  * The edge message.  Row r of the message array depends on row r of the gathered source-node features nf and on
    row r of the edge features ea only:
        msg[r, e] = tanh ( (Σ_{k<16} nf[r,k] · wn[k,e]  +  Σ_{k<16} ea[r,k] · we[k,e])  +  b[0,e] ),
    where wn and we are the top and bottom 16 rows of the 32 × 10 weight matrix and b is the bias written as one row.
  * The node update.  Row r of the result depends on row r of the aggregated messages x only:
        h[r, j] = tanh ( Σ_{k<10} x[r,k] · w1[k,j] + b1[0,j] ),     out[r, e] = tanh ( Σ_{j<10} h[r,j] · w2[j,e] + b2[0,e] ).
  Because a row of the result reads one row of the row-indexed inputs, the map on a block of rows is the block of
  the map: that is what lets a kernel that walks the rows block by block be compared with one whole-array expression.

  Also: the top and bottom halves of the weight matrix and a bias vector written as one row, as index maps.
-/
import Idealize.ShloMosaic.Lib.ValueIdx
import Idealize.ShloMosaic.PureOps.Ideal

noncomputable section

namespace Cert.GraphNet

open Idealize.ShloMosaic Idealize.ShloMosaic.ValueIdx

/-- Entry (r, e) of the edge message. -/
def edgeMsgAt {n : ℕ} (nf ea : (⟨2, ![n, 16]⟩ : Shape).Idx → EReal) (wn we : (⟨2, ![16, 10]⟩ : Shape).Idx → EReal)
    (b : (⟨2, ![1, 10]⟩ : Shape).Idx → EReal) (r : Fin n) (e : Fin 10) : EReal :=
  Ideal.tanh (((∑ k : Fin 16, nf (ix2 r k) * wn (ix2 k e)) + (∑ k : Fin 16, ea (ix2 r k) * we (ix2 k e)))
    + b (ix2 (0 : Fin 1) e))

/-- The edge-message array of n rows. -/
def edgeMsg {n : ℕ} (nf ea : (⟨2, ![n, 16]⟩ : Shape).Idx → EReal) (wn we : (⟨2, ![16, 10]⟩ : Shape).Idx → EReal)
    (b : (⟨2, ![1, 10]⟩ : Shape).Idx → EReal) : (⟨2, ![n, 10]⟩ : Shape).Idx → EReal :=
  fun j => edgeMsgAt nf ea wn we b (j 0) (j 1)

theorem edgeMsg_ix2 {n : ℕ} (nf ea : (⟨2, ![n, 16]⟩ : Shape).Idx → EReal) (wn we : (⟨2, ![16, 10]⟩ : Shape).Idx → EReal)
    (b : (⟨2, ![1, 10]⟩ : Shape).Idx → EReal) (r : Fin n) (e : Fin 10) :
    edgeMsg nf ea wn we b (ix2 r e) = edgeMsgAt nf ea wn we b r e := rfl

/-- Entry (r, j) of the hidden layer of the node update. -/
def hiddenAt {n : ℕ} (x : (⟨2, ![n, 10]⟩ : Shape).Idx → EReal) (w1 : (⟨2, ![10, 10]⟩ : Shape).Idx → EReal)
    (b1 : (⟨2, ![1, 10]⟩ : Shape).Idx → EReal) (r : Fin n) (j : Fin 10) : EReal :=
  Ideal.tanh ((∑ k : Fin 10, x (ix2 r k) * w1 (ix2 k j)) + b1 (ix2 (0 : Fin 1) j))

/-- Entry (r, e) of the node update. -/
def nodeMlpAt {n : ℕ} (x : (⟨2, ![n, 10]⟩ : Shape).Idx → EReal) (w1 : (⟨2, ![10, 10]⟩ : Shape).Idx → EReal)
    (b1 : (⟨2, ![1, 10]⟩ : Shape).Idx → EReal) (w2 : (⟨2, ![10, 5]⟩ : Shape).Idx → EReal)
    (b2 : (⟨2, ![1, 5]⟩ : Shape).Idx → EReal) (r : Fin n) (e : Fin 5) : EReal :=
  Ideal.tanh ((∑ j : Fin 10, hiddenAt x w1 b1 r j * w2 (ix2 j e)) + b2 (ix2 (0 : Fin 1) e))

/-- The node-update array of n rows. -/
def nodeMlp {n : ℕ} (x : (⟨2, ![n, 10]⟩ : Shape).Idx → EReal) (w1 : (⟨2, ![10, 10]⟩ : Shape).Idx → EReal)
    (b1 : (⟨2, ![1, 10]⟩ : Shape).Idx → EReal) (w2 : (⟨2, ![10, 5]⟩ : Shape).Idx → EReal)
    (b2 : (⟨2, ![1, 5]⟩ : Shape).Idx → EReal) : (⟨2, ![n, 5]⟩ : Shape).Idx → EReal :=
  fun j => nodeMlpAt x w1 b1 w2 b2 (j 0) (j 1)

theorem nodeMlp_ix2 {n : ℕ} (x : (⟨2, ![n, 10]⟩ : Shape).Idx → EReal) (w1 : (⟨2, ![10, 10]⟩ : Shape).Idx → EReal)
    (b1 : (⟨2, ![1, 10]⟩ : Shape).Idx → EReal) (w2 : (⟨2, ![10, 5]⟩ : Shape).Idx → EReal)
    (b2 : (⟨2, ![1, 5]⟩ : Shape).Idx → EReal) (r : Fin n) (e : Fin 5) :
    nodeMlp x w1 b1 w2 b2 (ix2 r e) = nodeMlpAt x w1 b1 w2 b2 r e := rfl

/-- The edge message at (r, e) of one family of arrays is the edge message at (r', e') of another when the entries it
    reads agree: row r of the features with row r', column e of the weights and of the bias with column e'. -/
theorem edgeMsgAt_congr {n n' : ℕ} (nf ea : (⟨2, ![n, 16]⟩ : Shape).Idx → EReal) (wn we : (⟨2, ![16, 10]⟩ : Shape).Idx → EReal)
    (b : (⟨2, ![1, 10]⟩ : Shape).Idx → EReal) (nf' ea' : (⟨2, ![n', 16]⟩ : Shape).Idx → EReal)
    (wn' we' : (⟨2, ![16, 10]⟩ : Shape).Idx → EReal) (b' : (⟨2, ![1, 10]⟩ : Shape).Idx → EReal)
    (r : Fin n) (e : Fin 10) (r' : Fin n') (e' : Fin 10)
    (hnf : ∀ k : Fin 16, nf (ix2 r k) = nf' (ix2 r' k)) (hea : ∀ k : Fin 16, ea (ix2 r k) = ea' (ix2 r' k))
    (hwn : ∀ k : Fin 16, wn (ix2 k e) = wn' (ix2 k e')) (hwe : ∀ k : Fin 16, we (ix2 k e) = we' (ix2 k e'))
    (hb : b (ix2 (0 : Fin 1) e) = b' (ix2 (0 : Fin 1) e')) :
    edgeMsgAt nf ea wn we b r e = edgeMsgAt nf' ea' wn' we' b' r' e' := by
  unfold edgeMsgAt
  rw [hb, Finset.sum_congr rfl fun k _ => congrArg₂ (· * ·) (hnf k) (hwn k),
    Finset.sum_congr rfl fun k _ => congrArg₂ (· * ·) (hea k) (hwe k)]

/-- The node update at (r, e) of one family of arrays is the node update at (r', e') of another when the entries it
    reads agree. -/
theorem nodeMlpAt_congr {n n' : ℕ} (x : (⟨2, ![n, 10]⟩ : Shape).Idx → EReal) (w1 : (⟨2, ![10, 10]⟩ : Shape).Idx → EReal)
    (b1 : (⟨2, ![1, 10]⟩ : Shape).Idx → EReal) (w2 : (⟨2, ![10, 5]⟩ : Shape).Idx → EReal)
    (b2 : (⟨2, ![1, 5]⟩ : Shape).Idx → EReal) (x' : (⟨2, ![n', 10]⟩ : Shape).Idx → EReal)
    (w1' : (⟨2, ![10, 10]⟩ : Shape).Idx → EReal) (b1' : (⟨2, ![1, 10]⟩ : Shape).Idx → EReal)
    (w2' : (⟨2, ![10, 5]⟩ : Shape).Idx → EReal) (b2' : (⟨2, ![1, 5]⟩ : Shape).Idx → EReal)
    (r : Fin n) (e : Fin 5) (r' : Fin n') (e' : Fin 5)
    (hx : ∀ k : Fin 10, x (ix2 r k) = x' (ix2 r' k)) (hw1 : w1 = w1') (hb1 : b1 = b1')
    (hw2 : ∀ j : Fin 10, w2 (ix2 j e) = w2' (ix2 j e')) (hb2 : b2 (ix2 (0 : Fin 1) e) = b2' (ix2 (0 : Fin 1) e')) :
    nodeMlpAt x w1 b1 w2 b2 r e = nodeMlpAt x' w1' b1' w2' b2' r' e' := by
  subst hw1 hb1
  unfold nodeMlpAt hiddenAt
  rw [hb2]
  refine congrArg Ideal.tanh (congrArg₂ (· + ·) (Finset.sum_congr rfl fun j _ => ?_) rfl)
  rw [hw2 j, Finset.sum_congr rfl fun k _ => congrArg₂ (· * ·) (hx k) rfl]

/-- Rows 0 … 15 of a 32-row matrix. -/
def topRows (W : (⟨2, ![32, 10]⟩ : Shape).Idx → EReal) : (⟨2, ![16, 10]⟩ : Shape).Idx → EReal :=
  fun j => W (ix2 (⟨(j 0).val, by have := (j 0).isLt; simp at this; omega⟩ : Fin 32) (j 1))

/-- Rows 16 … 31 of a 32-row matrix. -/
def bottomRows (W : (⟨2, ![32, 10]⟩ : Shape).Idx → EReal) : (⟨2, ![16, 10]⟩ : Shape).Idx → EReal :=
  fun j => W (ix2 (⟨16 + (j 0).val, by have := (j 0).isLt; simp at this; omega⟩ : Fin 32) (j 1))

/-- A vector written as a matrix of one row. -/
def asRow {a : ℕ} (b : (⟨1, ![a]⟩ : Shape).Idx → EReal) : (⟨2, ![1, a]⟩ : Shape).Idx → EReal :=
  fun j => b (ix1 (j 1))

end Cert.GraphNet

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.EdgePayload.lean ====
/-
  What the edge kernel stores at a grid point, read entry by entry.

  The kernel body loads a block of 6400 rows of the gathered node features and of the edge features, the two
  16 × 10 halves of the weight matrix and the bias row, multiplies each feature block by its half of the weights
  (two matrix products into a zero accumulator; the roundings to bfloat16 on the way in are the identity on the
  extended reals), adds the two products, adds the bias row to every row and applies tanh. Entry (r, e) of that
  block is therefore the edge message of row r: the block is the edge-message map on 6400 rows.
-/
import proofs.«159990_j64630667870284_2_alg».proof.Proof.Gen.KernelIdeal.Skeleton
import proofs.«159990_j64630667870284_2_alg».proof.Proof.Spec
import proofs.«159990_j64630667870284_2_alg».proof.Proof.LibPlainMatmul
import Idealize.ShloMosaic.Lib.ValueLayout

noncomputable section

namespace Cert.GraphNet

open Idealize.ShloMosaic Idealize.ShloMosaic.ValueIdx Cert.KernelIdeal Cert.KernelIdeal.Gen

/-- The block the edge kernel stores is the edge-message map of the blocks it loaded. -/
theorem edge_payload (x0 x1 : Vec Ideal S6400x16 .f32) (x2 x3 : Vec Ideal S16x10 .f32) (x4 : Vec Ideal S1x10 .f32) :
    k0_pay1 (F := Ideal) x0 x1 x2 x3 x4 = edgeMsg (n := 6400) x0 x1 x2 x3 x4 := by
  funext j
  obtain ⟨r, e, rfl⟩ : ∃ (r : Fin 6400) (e : Fin 10), j = ix2 r e := ⟨j 0, j 1, eq_ix2 j⟩
  rw [edgeMsg_ix2]
  unfold k0_pay1 edgeMsgAt
  refine congrArg Ideal.tanh ?_
  refine congrArg₂ (· + ·) (congrArg₂ (· + ·) ?_ ?_) ?_
  · refine (matmul_plain_zero_apply dot_S6400x16_S16x10_S6400x10_1_0_0_1_n_n rfl none _ _ r e).trans ?_
    simp only [truncf_apply, shapeCast_self]
  · refine (matmul_plain_zero_apply dot_S6400x16_S16x10_S6400x10_1_0_0_1_n_n rfl none _ _ r e).trans ?_
    simp only [truncf_apply, shapeCast_self]
  · refine (broadcastTo_1b_ab_apply _ broadcasts_S1x10_S6400x10 r e).trans ?_
    rw [shapeCast_self]

end Cert.GraphNet

end
-- ==== Proof.EdgeRegion.lean ====
/-
  The message array after the edge kernel's pipeline, as one function of the arrays the pipeline was entered with.

  The pipeline walks the 3,200,000 edges in 500 blocks of 6400 rows. At point t it reads rows 6400·t … 6400·t + 6399
  of the two feature arrays and the whole of the two weight halves and the bias row, and writes back rows
  6400·t … 6400·t + 6399 of the message array. Since a row of the edge-message map reads only its own row of the
  features, what point t writes back is block t of the edge-message map of the whole arrays; the 500 blocks tile the
  rows (row r is in block r / 6400), so the array ends holding that map.
-/
import proofs.«159990_j64630667870284_2_alg».proof.Proof.Gen.KernelIdeal.Frame
import proofs.«159990_j64630667870284_2_alg».proof.Proof.EdgePayload
import Idealize.ShloMosaic.Lib.Pipeline.Value

set_option maxRecDepth 16384

noncomputable section

namespace Cert.GraphNet

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem offset_zero2 : (![0, 0] : Fin 2 → Nat) = fun _ => 0 := funext fun a => by fin_cases a <;> rfl

/-- The printed index maps over the grid: the two feature windows and the output window are at block t along the
    rows, every other block index is 0. -/
theorem edge_index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the edge-message map of the arrays as the pipeline finds them. -/
theorem edge_flushed (c : Dev nD) (t : Fin cfg0.N) :
    (dat0 V c).flushed 5 t = ((cfg0.win 5).blk t).view.read (Elt Ideal)
      (edgeMsg (n := 3200000) (V c main_v10) (V c main_arg2) (V c main_v11) (V c main_v12) (V c main_v13)) := by
  show (cfg0.win 5).cut (grid0.coords t) ((dat0 V c).after 5 t) = _
  rw [after0_5]
  unfold out0_5
  rw [View.canon_unit_zero offset_zero2]
  simp only [View.ld_unit_zero (S := S6400x16) offset_zero2, View.ld_unit_zero (S := S16x10) offset_zero2,
    View.ld_unit_zero (S := S1x10) offset_zero2]
  rw [edge_payload]
  obtain ⟨e00, e01, e10, e11, e20, e21, e30, e31, e40, e41, e50, e51⟩ := edge_index_facts t
  funext j
  have hj0 : (j 0).val < 6400 := (j 0).isLt
  have hj1 : (j 1).val < 10 := (j 1).isLt
  show edgeMsgAt (n := 6400) (iblk0 V c 0 t) (iblk0 V c 1 t) (iblk0 V c 2 t) (iblk0 V c 3 t) (iblk0 V c 4 t) (j 0) (j 1)
    = edgeMsgAt (n := 3200000) (V c main_v10) (V c main_arg2) (V c main_v11) (V c main_v12) (V c main_v13)
        ((((cfg0.win 5).blk t).view.emb j) 0) ((((cfg0.win 5).blk t).view.emb j) 1)
  refine edgeMsgAt_congr (iblk0 V c 0 t) (iblk0 V c 1 t) (iblk0 V c 2 t) (iblk0 V c 3 t) (iblk0 V c 4 t)
    (V c main_v10) (V c main_arg2) (V c main_v11) (V c main_v12) (V c main_v13) (j 0) (j 1) _ _
    (fun k => ?_) (fun k => ?_) (fun k => ?_) (fun k => ?_) ?_
  · show V c main_v10 (((cfg0.win 0).blk t).view.emb (ix2 (j 0) k)) = V c main_v10 _
    refine congrArg (V c main_v10) (funext fun a => Fin.ext ?_)
    match a with
    | ⟨0, _⟩ => show win0_0.index t (0 : Fin 2) * 6400 + 1 * (j 0).val = win0_5.index t (0 : Fin 2) * 6400 + 1 * (j 0).val; omega
    | ⟨1, _⟩ => show win0_0.index t (1 : Fin 2) * 16 + 1 * k.val = k.val; omega
  · show V c main_arg2 (((cfg0.win 1).blk t).view.emb (ix2 (j 0) k)) = V c main_arg2 _
    refine congrArg (V c main_arg2) (funext fun a => Fin.ext ?_)
    match a with
    | ⟨0, _⟩ => show win0_1.index t (0 : Fin 2) * 6400 + 1 * (j 0).val = win0_5.index t (0 : Fin 2) * 6400 + 1 * (j 0).val; omega
    | ⟨1, _⟩ => show win0_1.index t (1 : Fin 2) * 16 + 1 * k.val = k.val; omega
  · show V c main_v11 (((cfg0.win 2).blk t).view.emb (ix2 k (j 1))) = V c main_v11 _
    refine congrArg (V c main_v11) (funext fun a => Fin.ext ?_)
    match a with
    | ⟨0, _⟩ => show win0_2.index t (0 : Fin 2) * 16 + 1 * k.val = k.val; omega
    | ⟨1, _⟩ => show win0_2.index t (1 : Fin 2) * 10 + 1 * (j 1).val = win0_5.index t (1 : Fin 2) * 10 + 1 * (j 1).val; omega
  · show V c main_v12 (((cfg0.win 3).blk t).view.emb (ix2 k (j 1))) = V c main_v12 _
    refine congrArg (V c main_v12) (funext fun a => Fin.ext ?_)
    match a with
    | ⟨0, _⟩ => show win0_3.index t (0 : Fin 2) * 16 + 1 * k.val = k.val; omega
    | ⟨1, _⟩ => show win0_3.index t (1 : Fin 2) * 10 + 1 * (j 1).val = win0_5.index t (1 : Fin 2) * 10 + 1 * (j 1).val; omega
  · show V c main_v13 (((cfg0.win 4).blk t).view.emb (ix2 (0 : Fin 1) (j 1))) = V c main_v13 _
    refine congrArg (V c main_v13) (funext fun a => Fin.ext ?_)
    match a with
    | ⟨0, _⟩ => show win0_4.index t (0 : Fin 2) * 1 + 1 * 0 = 0; omega
    | ⟨1, _⟩ => show win0_4.index t (1 : Fin 2) * 10 + 1 * (j 1).val = win0_5.index t (1 : Fin 2) * 10 + 1 * (j 1).val; omega

/-- An index of the message array is in point t's block iff each coordinate is in the block's range on its axis. -/
theorem edge_mem_blk (t : Fin cfg0.N) (i : S3200000x10.Idx) :
    i ∈ ((cfg0.win 5).blk t).view.set ↔ ∀ a : Fin 2, win0_5.index t a * S6400x10.size a ≤ (i a).val ∧ (i a).val < win0_5.index t a * S6400x10.size a + S6400x10.size a := by
  show i ∈ ((View.whole main_v14).slice (win0_5.rect t)).set ↔ _
  rw [View.set_slice_whole, Rect.mem_set_unit]
  exact Iff.rfl

/-- Every index of the message array is in the block of the point its row falls in. -/
theorem edge_cover (i : S3200000x10.Idx) :
    ∃ t : Fin cfg0.N, (cfg0.win 5).flush t = true ∧ i ∈ ((cfg0.win 5).blk t).view.set := by
  have hi0 : (i 0).val < 3200000 := (i 0).isLt
  have hi1 : (i 1).val < 10 := (i 1).isLt
  have hN : grid0.N = 500 := N_0
  let t : Fin cfg0.N := ⟨(i 0).val / 6400, by show (i 0).val / 6400 < grid0.N; rw [hN]; omega⟩
  obtain ⟨-, -, -, -, -, -, -, -, -, -, e50, e51⟩ := edge_index_facts t
  have ht : t.val = (i 0).val / 6400 := rfl
  refine ⟨t, flush0_5 t, ?_⟩
  rw [edge_mem_blk]
  intro a
  match a with
  | ⟨0, _⟩ => show win0_5.index t (0 : Fin 2) * 6400 ≤ (i 0).val ∧ (i 0).val < win0_5.index t (0 : Fin 2) * 6400 + 6400; omega
  | ⟨1, _⟩ => show win0_5.index t (1 : Fin 2) * 10 ≤ (i 1).val ∧ (i 1).val < win0_5.index t (1 : Fin 2) * 10 + 10; omega

/-- The message array after the pipeline is the edge-message map of the arrays the pipeline was entered with. -/
theorem edge_final (c : Dev nD) :
    (dat0 V c).arrAt 5 cfg0.N
      = edgeMsg (n := 3200000) (V c main_v10) (V c main_arg2) (V c main_v11) (V c main_v12) (V c main_v13) :=
  (dat0 V c).arrAt_eq_of_cover 5 _ (fun t _ => edge_flushed V c t) edge_cover

end Cert.GraphNet

end
-- ==== Proof.NodePayload.lean ====
/-
  What the node kernel stores at a grid point, read entry by entry.

  The kernel body loads a block of 10000 rows of the aggregated messages, the two weight matrices and the two bias
  rows; it forms the hidden layer tanh(x · w1 + b1) (a matrix product into a zero accumulator, the bias row added to
  every row), and from it tanh(h · w2 + b2) in the same way. Entry (r, e) of that block is the node update of row r.
-/
import proofs.«159990_j64630667870284_2_alg».proof.Proof.Gen.KernelIdeal.Skeleton
import proofs.«159990_j64630667870284_2_alg».proof.Proof.Spec
import proofs.«159990_j64630667870284_2_alg».proof.Proof.LibPlainMatmul
import Idealize.ShloMosaic.Lib.ValueLayout

noncomputable section

namespace Cert.GraphNet

open Idealize.ShloMosaic Idealize.ShloMosaic.ValueIdx Cert.KernelIdeal Cert.KernelIdeal.Gen

/-- The block the node kernel stores is the node-update map of the blocks it loaded. -/
theorem node_payload (x0 : Vec Ideal S10000x10 .f32) (x1 : Vec Ideal S10x10 .f32) (x2 : Vec Ideal S1x10 .f32)
    (x3 : Vec Ideal S10x5 .f32) (x4 : Vec Ideal S1x5 .f32) :
    k1_pay1 (F := Ideal) x0 x1 x2 x3 x4 = nodeMlp (n := 10000) x0 x1 x2 x3 x4 := by
  funext j
  obtain ⟨r, e, rfl⟩ : ∃ (r : Fin 10000) (e : Fin 5), j = ix2 r e := ⟨j 0, j 1, eq_ix2 j⟩
  rw [nodeMlp_ix2]
  unfold k1_pay1 nodeMlpAt
  refine congrArg Ideal.tanh ?_
  refine congrArg₂ (· + ·) ?_ ?_
  · refine (matmul_plain_zero_apply dot_S10000x10_S10x5_S10000x5_1_0_0_1_n_n rfl none _ _ r e).trans ?_
    refine Finset.sum_congr rfl fun k _ => ?_
    refine congrArg₂ (· * ·) ?_ rfl
    unfold hiddenAt
    refine congrArg Ideal.tanh ?_
    refine congrArg₂ (· + ·) ?_ ?_
    · refine (matmul_plain_zero_apply dot_S10000x10_S10x10_S10000x10_1_0_0_1_n_n rfl none _ _ r k).trans ?_
      simp only [truncf_apply, shapeCast_self]
    · refine (broadcastTo_1b_ab_apply _ broadcasts_S1x10_S10000x10 r k).trans ?_
      rw [shapeCast_self]
  · refine (broadcastTo_1b_ab_apply _ broadcasts_S1x5_S10000x5 r e).trans ?_
    rw [shapeCast_self]

end Cert.GraphNet

end
-- ==== Proof.NodeRegion.lean ====
/-
  The node-update array after the node kernel's pipeline, as one function of the arrays the pipeline was entered with.

  The pipeline walks the 100,000 nodes in 10 blocks of 10000 rows. At point t it reads rows 10000·t … 10000·t + 9999
  of the aggregated messages and the whole of the weights and bias rows, and writes back the same rows of the result.
  A row of the node update reads only its own row of the messages, so what point t writes back is block t of the
  node-update map of the whole arrays; the 10 blocks tile the rows (row r is in block r / 10000).
-/
import proofs.«159990_j64630667870284_2_alg».proof.Proof.Gen.KernelIdeal.Frame
import proofs.«159990_j64630667870284_2_alg».proof.Proof.NodePayload
import Idealize.ShloMosaic.Lib.Pipeline.Value

set_option maxRecDepth 16384

noncomputable section

namespace Cert.GraphNet

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem offset_zero2' : (![0, 0] : Fin 2 → Nat) = fun _ => 0 := funext fun a => by fin_cases a <;> rfl

/-- The printed index maps over the grid: the message window and the output window are at block t along the rows,
    every other block index is 0. -/
theorem node_index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A whole-array window read at its one block is the array. -/
theorem whole_block_eq {s : Shape} (X Y : s.Idx → EReal) (h : ∀ i, X i = Y i) : X = Y := funext h

/-- What point t writes back is block t of the node-update map of the arrays as the pipeline finds them. -/
theorem node_flushed (c : Dev nD) (t : Fin cfg1.N) :
    (dat1 V c).flushed 5 t = ((cfg1.win 5).blk t).view.read (Elt Ideal)
      (nodeMlp (n := 100000) (V c main_v17) (V c main_arg6) (V c main_v18) (V c main_arg8) (V c main_v19)) := by
  show (cfg1.win 5).cut (grid1.coords t) ((dat1 V c).after 5 t) = _
  rw [after1_5]
  unfold out1_5
  rw [View.canon_unit_zero offset_zero2']
  simp only [View.ld_unit_zero (S := S10000x10) offset_zero2', View.ld_unit_zero (S := S10x10) offset_zero2',
    View.ld_unit_zero (S := S1x10) offset_zero2', View.ld_unit_zero (S := S10x5) offset_zero2',
    View.ld_unit_zero (S := S1x5) offset_zero2']
  rw [node_payload]
  obtain ⟨e00, e01, e10, e11, e20, e21, e30, e31, e40, e41, e50, e51⟩ := node_index_facts t
  funext j
  have hj0 : (j 0).val < 10000 := (j 0).isLt
  have hj1 : (j 1).val < 5 := (j 1).isLt
  show nodeMlpAt (n := 10000) (iblk1 V c 0 t) (iblk1 V c 1 t) (iblk1 V c 2 t) (iblk1 V c 3 t) (iblk1 V c 4 t) (j 0) (j 1)
    = nodeMlpAt (n := 100000) (V c main_v17) (V c main_arg6) (V c main_v18) (V c main_arg8) (V c main_v19)
        ((((cfg1.win 5).blk t).view.emb j) 0) ((((cfg1.win 5).blk t).view.emb j) 1)
  refine nodeMlpAt_congr (iblk1 V c 0 t) (iblk1 V c 1 t) (iblk1 V c 2 t) (iblk1 V c 3 t) (iblk1 V c 4 t)
    (V c main_v17) (V c main_arg6) (V c main_v18) (V c main_arg8) (V c main_v19) (j 0) (j 1) _ _
    (fun k => ?_) ?_ ?_ (fun k => ?_) ?_
  · show V c main_v17 (((cfg1.win 0).blk t).view.emb (ix2 (j 0) k)) = V c main_v17 _
    refine congrArg (V c main_v17) (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 10 + 1 * k.val = k.val; omega
  · refine whole_block_eq _ _ fun y => ?_
    show V c main_arg6 (((cfg1.win 1).blk t).view.emb y) = V c main_arg6 y
    refine congrArg (V c main_arg6) (funext fun a => Fin.ext ?_)
    match a with
    | ⟨0, _⟩ => show win1_1.index t (0 : Fin 2) * 10 + 1 * (y 0).val = (y 0).val; omega
    | ⟨1, _⟩ => show win1_1.index t (1 : Fin 2) * 10 + 1 * (y 1).val = (y 1).val; omega
  · refine whole_block_eq _ _ fun y => ?_
    show V c main_v18 (((cfg1.win 2).blk t).view.emb y) = V c main_v18 y
    refine congrArg (V c main_v18) (funext fun a => Fin.ext ?_)
    match a with
    | ⟨0, _⟩ => show win1_2.index t (0 : Fin 2) * 1 + 1 * (y 0).val = (y 0).val; omega
    | ⟨1, _⟩ => show win1_2.index t (1 : Fin 2) * 10 + 1 * (y 1).val = (y 1).val; omega
  · show V c main_arg8 (((cfg1.win 3).blk t).view.emb (ix2 k (j 1))) = V c main_arg8 _
    refine congrArg (V c main_arg8) (funext fun a => Fin.ext ?_)
    match a with
    | ⟨0, _⟩ => show win1_3.index t (0 : Fin 2) * 10 + 1 * k.val = k.val; omega
    | ⟨1, _⟩ => show win1_3.index t (1 : Fin 2) * 5 + 1 * (j 1).val = win1_5.index t (1 : Fin 2) * 5 + 1 * (j 1).val; omega
  · show V c main_v19 (((cfg1.win 4).blk t).view.emb (ix2 (0 : Fin 1) (j 1))) = V c main_v19 _
    refine congrArg (V c main_v19) (funext fun a => Fin.ext ?_)
    match a with
    | ⟨0, _⟩ => show win1_4.index t (0 : Fin 2) * 1 + 1 * 0 = 0; omega
    | ⟨1, _⟩ => show win1_4.index t (1 : Fin 2) * 5 + 1 * (j 1).val = win1_5.index t (1 : Fin 2) * 5 + 1 * (j 1).val; omega

/-- An index of the result array is in point t's block iff each coordinate is in the block's range on its axis. -/
theorem node_mem_blk (t : Fin cfg1.N) (i : S100000x5.Idx) :
    i ∈ ((cfg1.win 5).blk t).view.set ↔ ∀ a : Fin 2, win1_5.index t a * S10000x5.size a ≤ (i a).val ∧ (i a).val < win1_5.index t a * S10000x5.size a + S10000x5.size a := by
  show i ∈ ((View.whole main_v20).slice (win1_5.rect t)).set ↔ _
  rw [View.set_slice_whole, Rect.mem_set_unit]
  exact Iff.rfl

/-- Every index of the result array is in the block of the point its row falls in. -/
theorem node_cover (i : S100000x5.Idx) :
    ∃ t : Fin cfg1.N, (cfg1.win 5).flush t = true ∧ i ∈ ((cfg1.win 5).blk t).view.set := by
  have hi0 : (i 0).val < 100000 := (i 0).isLt
  have hi1 : (i 1).val < 5 := (i 1).isLt
  have hN : grid1.N = 10 := N_1
  let t : Fin cfg1.N := ⟨(i 0).val / 10000, by show (i 0).val / 10000 < grid1.N; rw [hN]; omega⟩
  obtain ⟨-, -, -, -, -, -, -, -, -, -, e50, e51⟩ := node_index_facts t
  have ht : t.val = (i 0).val / 10000 := rfl
  refine ⟨t, flush1_5 t, ?_⟩
  rw [node_mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 5 ≤ (i 1).val ∧ (i 1).val < win1_5.index t (1 : Fin 2) * 5 + 5; omega

/-- The result array after the pipeline is the node-update map of the arrays the pipeline was entered with. -/
theorem node_final (c : Dev nD) :
    (dat1 V c).arrAt 5 cfg1.N
      = nodeMlp (n := 100000) (V c main_v17) (V c main_arg6) (V c main_v18) (V c main_arg8) (V c main_v19) :=
  (dat1 V c).arrAt_eq_of_cover 5 _ (fun t _ => node_flushed V c t) node_cover

end Cert.GraphNet

end
-- ==== Proof.HostStages.lean ====
/-
  The parts of the network that both programs compute with the same host operations, each as ONE named function, and
  the whole network as their composition with the two per-row maps.

  * sourceColumn: row 0 of the edge-index array, a negative index wrapped by adding the number of nodes, as a column;
    gatherSource: the node features gathered at those indices (one row of 16 per edge).
  * targetColumn: row 1 of the edge-index array as a column.
  * aggregate: the messages summed into their target nodes (a scatter-add into zeros).
  * readout: the node results summed into their graphs (a scatter-add into zeros), then tanh(g · W3 + b3) · W4 + b4.
  The per-row maps in between are the edge message and the node update (Spec). Nothing here opens a gather or a
  scatter: the two programs apply them to values that are shown equal, so they stay closed.

  Also: the slices of the weight matrix and the reshape of a bias vector that the kernel's host side makes are the
  top rows, the bottom rows and the one-row form of Spec.
-/
import proofs.«159990_j64630667870284_2_alg».proof.Proof.Gen.KernelIdeal
import proofs.«159990_j64630667870284_2_alg».proof.Proof.Spec
import Idealize.ShloMosaic.Lib.Pipeline.Value
import Idealize.ShloMosaic.Lib.ValueLayout

noncomputable section

namespace Cert.GraphNet

open Idealize.ShloMosaic Idealize.ShloMosaic.ValueIdx Cert.KernelIdeal Cert.KernelIdeal.Facts₀

variable {F : FTy → Type} [FloatOps F]

/-- Row `k` of the 2 × E edge-index array as a vector of length E. -/
def indexRow0 (x0 : (⟨S2x3200000, .i32⟩ : BufTy).Contents (Elt F)) : (⟨S3200000, .i32⟩ : BufTy).Contents (Elt F) :=
  shapeCast _ (extractStridedSlice S1x3200000 ![0, 0] x0 slices_S2x3200000_S1x3200000_0_0) shapeCasts_S1x3200000_S3200000

def indexRow1 (x0 : (⟨S2x3200000, .i32⟩ : BufTy).Contents (Elt F)) : (⟨S3200000, .i32⟩ : BufTy).Contents (Elt F) :=
  shapeCast _ (extractStridedSlice S1x3200000 ![1, 0] x0 slices_S2x3200000_S1x3200000_1_0) shapeCasts_S1x3200000_S3200000

/-- The source-node indices, a negative one wrapped by adding 100000, as a column. -/
def sourceColumn (x0 : (⟨S2x3200000, .i32⟩ : BufTy).Contents (Elt F)) : (⟨S3200000x1, .i32⟩ : BufTy).Contents (Elt F) :=
  broadcastInDim S3200000x1 ![0] bcast_S3200000_S3200000x1_0
    (select (cmpi .slt (indexRow0 (F := F) x0) (broadcastInDim S3200000 ![] bcast_S_S3200000 (constantI S_ 32 0#32)))
      (addi (indexRow0 (F := F) x0) (broadcastInDim S3200000 ![] bcast_S_S3200000 (constantI S_ 32 100000#32)))
      (indexRow0 (F := F) x0))

/-- The node features gathered at the source indices. -/
def gatherSource (x0 : (⟨S2x3200000, .i32⟩ : BufTy).Contents (Elt F)) (x1 : (⟨S100000x16, .f32⟩ : BufTy).Contents (Elt F)) :
    (⟨S3200000x16, .f32⟩ : BufTy).Contents (Elt F) :=
  Host.gather gather_S100000x16_S3200000x1_S3200000x16_1_0_n_n_0_1_116 x1 (sourceColumn (F := F) x0)

/-- A vector of E indices as a column. -/
def asColumn (v : (⟨S3200000, .i32⟩ : BufTy).Contents (Elt F)) : (⟨S3200000x1, .i32⟩ : BufTy).Contents (Elt F) :=
  broadcastInDim S3200000x1 ![0] bcast_S3200000_S3200000x1_0 v

/-- The target-node indices as a column. -/
def targetColumn (x0 : (⟨S2x3200000, .i32⟩ : BufTy).Contents (Elt F)) : (⟨S3200000x1, .i32⟩ : BufTy).Contents (Elt F) :=
  asColumn (F := F) (indexRow1 (F := F) x0)

/-- The messages summed into their target nodes. -/
def aggregate (idx : (⟨S3200000x1, .i32⟩ : BufTy).Contents (Elt F)) (msg : (⟨S3200000x10, .f32⟩ : BufTy).Contents (Elt F)) :
    (⟨S100000x10, .f32⟩ : BufTy).Contents (Elt F) :=
  Host.scatterAdd scatter_S100000x10_S3200000x1_S3200000x10_1_0_0_1
    (broadcastInDim S100000x10 ![] bcast_S_S100000x10 (constant S_ .f32 0x00000000#32)) idx msg

/-- The node results summed into their graphs, then the two dense layers of the readout. -/
def readout (x : (⟨S100000x5, .f32⟩ : BufTy).Contents (Elt F)) (x3 : (⟨S100000, .i32⟩ : BufTy).Contents (Elt F))
    (x10 : (⟨S5x5, .f32⟩ : BufTy).Contents (Elt F)) (x11 : (⟨S5, .f32⟩ : BufTy).Contents (Elt F))
    (x12 : (⟨S5x1, .f32⟩ : BufTy).Contents (Elt F)) (x13 : (⟨S1, .f32⟩ : BufTy).Contents (Elt F)) :
    (⟨S1000x1, .f32⟩ : BufTy).Contents (Elt F) :=
  addf (Host.dotGeneral dot_S1000x5_S5x1_S1000x1_1_0_0_1_n_n none
      (Host.tanh (addf (Host.dotGeneral dot_S1000x5_S5x5_S1000x5_1_0_0_1_n_n none
          (Host.scatterAdd scatter_S1000x5_S100000x1_S100000x5_1_0_0_1
            (broadcastInDim S1000x5 ![] bcast_S_S1000x5 (constant S_ .f32 0x00000000#32))
            (broadcastInDim S100000x1 ![0] bcast_S100000_S100000x1_0 x3) x) x10)
        (broadcastInDim S1000x5 ![0, 1] bcast_S1x5_S1000x5_0_1 (broadcastInDim S1x5 ![1] bcast_S5_S1x5_1 x11)))) x12)
    (broadcastInDim S1000x1 ![0, 1] bcast_S1x1_S1000x1_0_1 (broadcastInDim S1x1 ![1] bcast_S1_S1x1_1 x13))

/-- The whole network on the extended reals, from the fourteen argument arrays. -/
def network (x0 : (⟨S2x3200000, .i32⟩ : BufTy).Contents (Elt Ideal)) (x1 : (⟨S100000x16, .f32⟩ : BufTy).Contents (Elt Ideal))
    (x2 : (⟨S3200000x16, .f32⟩ : BufTy).Contents (Elt Ideal)) (x3 : (⟨S100000, .i32⟩ : BufTy).Contents (Elt Ideal))
    (x4 : (⟨S32x10, .f32⟩ : BufTy).Contents (Elt Ideal)) (x5 : (⟨S10, .f32⟩ : BufTy).Contents (Elt Ideal))
    (x6 : (⟨S10x10, .f32⟩ : BufTy).Contents (Elt Ideal)) (x7 : (⟨S10, .f32⟩ : BufTy).Contents (Elt Ideal))
    (x8 : (⟨S10x5, .f32⟩ : BufTy).Contents (Elt Ideal)) (x9 : (⟨S5, .f32⟩ : BufTy).Contents (Elt Ideal))
    (x10 : (⟨S5x5, .f32⟩ : BufTy).Contents (Elt Ideal)) (x11 : (⟨S5, .f32⟩ : BufTy).Contents (Elt Ideal))
    (x12 : (⟨S5x1, .f32⟩ : BufTy).Contents (Elt Ideal)) (x13 : (⟨S1, .f32⟩ : BufTy).Contents (Elt Ideal)) :
    (⟨S1000x1, .f32⟩ : BufTy).Contents (Elt Ideal) :=
  readout (F := Ideal)
    (nodeMlp (n := 100000)
      (aggregate (F := Ideal) (targetColumn (F := Ideal) x0)
        (edgeMsg (n := 3200000) (gatherSource (F := Ideal) x0 x1) x2 (topRows x4) (bottomRows x4) (asRow x5)))
      x6 (asRow x7) x8 (asRow x9))
    x3 x10 x11 x12 x13

/-- The slice of rows 0 … 15 is the top rows. -/
theorem slice_top (W : (⟨S32x10, .f32⟩ : BufTy).Contents (Elt Ideal)) :
    extractStridedSlice S16x10 ![0, 0] W slices_S32x10_S16x10_0_0 = topRows W := by
  funext j
  refine extractStridedSlice_apply ![0, 0] W slices_S32x10_S16x10_0_0 j _ fun a => ?_
  match a with
  | ⟨0, _⟩ => show (j 0).val = 0 + (j 0).val; omega
  | ⟨1, _⟩ => show (j 1).val = 0 + (j 1).val; omega

/-- The slice of rows 16 … 31 is the bottom rows. -/
theorem slice_bottom (W : (⟨S32x10, .f32⟩ : BufTy).Contents (Elt Ideal)) :
    extractStridedSlice S16x10 ![16, 0] W slices_S32x10_S16x10_16_0 = bottomRows W := by
  funext j
  refine extractStridedSlice_apply ![16, 0] W slices_S32x10_S16x10_16_0 j _ fun a => ?_
  match a with
  | ⟨0, _⟩ => show 16 + (j 0).val = 16 + (j 0).val; rfl
  | ⟨1, _⟩ => show (j 1).val = 0 + (j 1).val; omega

/-- A vector of length 10 reshaped to 1 × 10 is its one-row form. -/
theorem reshape_row10 (b : (⟨S10, .f32⟩ : BufTy).Contents (Elt Ideal)) :
    shapeCast S1x10 b shapeCasts_S10_S1x10 = asRow b := by
  funext j
  obtain ⟨u, i, rfl⟩ : ∃ (u : Fin 1) (i : Fin 10), j = ix2 u i := ⟨j 0, j 1, eq_ix2 j⟩
  exact shapeCast_a_1a_apply b shapeCasts_S10_S1x10 u i

/-- A vector of length 5 reshaped to 1 × 5 is its one-row form. -/
theorem reshape_row5 (b : (⟨S5, .f32⟩ : BufTy).Contents (Elt Ideal)) :
    shapeCast S1x5 b shapeCasts_S5_S1x5 = asRow b := by
  funext j
  obtain ⟨u, i, rfl⟩ : ∃ (u : Fin 1) (i : Fin 5), j = ix2 u i := ⟨j 0, j 1, eq_ix2 j⟩
  exact shapeCast_a_1a_apply b shapeCasts_S5_S1x5 u i

end Cert.GraphNet

end
-- ==== Proof.KernelValue.lean ====
/-
  What the idealized kernel's result buffer holds at the end, as the network of the launch arrays.

  The boundary contents are a fold through the program's five stretches. Read backwards from the result:
  the last host stretch is the readout of the node kernel's output array and of arguments no stretch writes;
  the node kernel's output array is the node update of the array the second host stretch aggregated, of two weight
  arguments and of two bias rows that stretch reshaped; the aggregated array is the scatter-add of the edge kernel's
  output array at the target column; and the edge kernel's output array is the edge message of the features the
  first host stretch gathered, of the edge features, and of the weight halves and bias row that stretch cut and
  reshaped. An argument array is read back to the launch memory through every stretch, none of which writes it.
-/
import proofs.«159990_j64630667870284_2_alg».proof.Proof.Gen.KernelIdeal.Frame
import proofs.«159990_j64630667870284_2_alg».proof.Proof.EdgeRegion
import proofs.«159990_j64630667870284_2_alg».proof.Proof.NodeRegion
import proofs.«159990_j64630667870284_2_alg».proof.Proof.HostStages
import Idealize.ShloMosaic.Lib.StableHlo.Run

set_option maxRecDepth 16384

noncomputable section

namespace Cert.GraphNet

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-! ## The arguments, read back through the stretches -/

theorem w1_arg2 (c : Dev nD) : W1 m ρ c (Proc.devRef .tc main_arg2) = m ((c : Thread nD τ).loc main_arg2) := by
  show StableHlo.after hostOps0 (W0 m ρ c) (Proc.devRef .tc main_arg2) = _
  after_results
theorem w1_arg3 (c : Dev nD) : W1 m ρ c (Proc.devRef .tc main_arg3) = m ((c : Thread nD τ).loc main_arg3) := by
  show StableHlo.after hostOps0 (W0 m ρ c) (Proc.devRef .tc main_arg3) = _
  after_results
theorem w1_arg6 (c : Dev nD) : W1 m ρ c (Proc.devRef .tc main_arg6) = m ((c : Thread nD τ).loc main_arg6) := by
  show StableHlo.after hostOps0 (W0 m ρ c) (Proc.devRef .tc main_arg6) = _
  after_results
theorem w1_arg7 (c : Dev nD) : W1 m ρ c (Proc.devRef .tc main_arg7) = m ((c : Thread nD τ).loc main_arg7) := by
  show StableHlo.after hostOps0 (W0 m ρ c) (Proc.devRef .tc main_arg7) = _
  after_results
theorem w1_arg8 (c : Dev nD) : W1 m ρ c (Proc.devRef .tc main_arg8) = m ((c : Thread nD τ).loc main_arg8) := by
  show StableHlo.after hostOps0 (W0 m ρ c) (Proc.devRef .tc main_arg8) = _
  after_results
theorem w1_arg9 (c : Dev nD) : W1 m ρ c (Proc.devRef .tc main_arg9) = m ((c : Thread nD τ).loc main_arg9) := by
  show StableHlo.after hostOps0 (W0 m ρ c) (Proc.devRef .tc main_arg9) = _
  after_results
theorem w1_arg10 (c : Dev nD) : W1 m ρ c (Proc.devRef .tc main_arg10) = m ((c : Thread nD τ).loc main_arg10) := by
  show StableHlo.after hostOps0 (W0 m ρ c) (Proc.devRef .tc main_arg10) = _
  after_results
theorem w1_arg11 (c : Dev nD) : W1 m ρ c (Proc.devRef .tc main_arg11) = m ((c : Thread nD τ).loc main_arg11) := by
  show StableHlo.after hostOps0 (W0 m ρ c) (Proc.devRef .tc main_arg11) = _
  after_results
theorem w1_arg12 (c : Dev nD) : W1 m ρ c (Proc.devRef .tc main_arg12) = m ((c : Thread nD τ).loc main_arg12) := by
  show StableHlo.after hostOps0 (W0 m ρ c) (Proc.devRef .tc main_arg12) = _
  after_results
theorem w1_arg13 (c : Dev nD) : W1 m ρ c (Proc.devRef .tc main_arg13) = m ((c : Thread nD τ).loc main_arg13) := by
  show StableHlo.after hostOps0 (W0 m ρ c) (Proc.devRef .tc main_arg13) = _
  after_results
theorem w2_arg3 (c : Dev nD) : W2 m ρ c (Proc.devRef .tc main_arg3) = m ((c : Thread nD τ).loc main_arg3) :=
  (W2_of_ne m ρ c main_arg3 (by decide)).trans (w1_arg3 m ρ c)
theorem w2_arg6 (c : Dev nD) : W2 m ρ c (Proc.devRef .tc main_arg6) = m ((c : Thread nD τ).loc main_arg6) :=
  (W2_of_ne m ρ c main_arg6 (by decide)).trans (w1_arg6 m ρ c)
theorem w2_arg7 (c : Dev nD) : W2 m ρ c (Proc.devRef .tc main_arg7) = m ((c : Thread nD τ).loc main_arg7) :=
  (W2_of_ne m ρ c main_arg7 (by decide)).trans (w1_arg7 m ρ c)
theorem w2_arg8 (c : Dev nD) : W2 m ρ c (Proc.devRef .tc main_arg8) = m ((c : Thread nD τ).loc main_arg8) :=
  (W2_of_ne m ρ c main_arg8 (by decide)).trans (w1_arg8 m ρ c)
theorem w2_arg9 (c : Dev nD) : W2 m ρ c (Proc.devRef .tc main_arg9) = m ((c : Thread nD τ).loc main_arg9) :=
  (W2_of_ne m ρ c main_arg9 (by decide)).trans (w1_arg9 m ρ c)
theorem w2_arg10 (c : Dev nD) : W2 m ρ c (Proc.devRef .tc main_arg10) = m ((c : Thread nD τ).loc main_arg10) :=
  (W2_of_ne m ρ c main_arg10 (by decide)).trans (w1_arg10 m ρ c)
theorem w2_arg11 (c : Dev nD) : W2 m ρ c (Proc.devRef .tc main_arg11) = m ((c : Thread nD τ).loc main_arg11) :=
  (W2_of_ne m ρ c main_arg11 (by decide)).trans (w1_arg11 m ρ c)
theorem w2_arg12 (c : Dev nD) : W2 m ρ c (Proc.devRef .tc main_arg12) = m ((c : Thread nD τ).loc main_arg12) :=
  (W2_of_ne m ρ c main_arg12 (by decide)).trans (w1_arg12 m ρ c)
theorem w2_arg13 (c : Dev nD) : W2 m ρ c (Proc.devRef .tc main_arg13) = m ((c : Thread nD τ).loc main_arg13) :=
  (W2_of_ne m ρ c main_arg13 (by decide)).trans (w1_arg13 m ρ c)
theorem w3_arg3 (c : Dev nD) : W3 m ρ c (Proc.devRef .tc main_arg3) = m ((c : Thread nD τ).loc main_arg3) := by
  show StableHlo.after hostOps1 (W2 m ρ c) (Proc.devRef .tc main_arg3) = _
  after_results
  exact w2_arg3 m ρ c
theorem w3_arg6 (c : Dev nD) : W3 m ρ c (Proc.devRef .tc main_arg6) = m ((c : Thread nD τ).loc main_arg6) := by
  show StableHlo.after hostOps1 (W2 m ρ c) (Proc.devRef .tc main_arg6) = _
  after_results
  exact w2_arg6 m ρ c
theorem w3_arg8 (c : Dev nD) : W3 m ρ c (Proc.devRef .tc main_arg8) = m ((c : Thread nD τ).loc main_arg8) := by
  show StableHlo.after hostOps1 (W2 m ρ c) (Proc.devRef .tc main_arg8) = _
  after_results
  exact w2_arg8 m ρ c
theorem w3_arg10 (c : Dev nD) : W3 m ρ c (Proc.devRef .tc main_arg10) = m ((c : Thread nD τ).loc main_arg10) := by
  show StableHlo.after hostOps1 (W2 m ρ c) (Proc.devRef .tc main_arg10) = _
  after_results
  exact w2_arg10 m ρ c
theorem w3_arg11 (c : Dev nD) : W3 m ρ c (Proc.devRef .tc main_arg11) = m ((c : Thread nD τ).loc main_arg11) := by
  show StableHlo.after hostOps1 (W2 m ρ c) (Proc.devRef .tc main_arg11) = _
  after_results
  exact w2_arg11 m ρ c
theorem w3_arg12 (c : Dev nD) : W3 m ρ c (Proc.devRef .tc main_arg12) = m ((c : Thread nD τ).loc main_arg12) := by
  show StableHlo.after hostOps1 (W2 m ρ c) (Proc.devRef .tc main_arg12) = _
  after_results
  exact w2_arg12 m ρ c
theorem w3_arg13 (c : Dev nD) : W3 m ρ c (Proc.devRef .tc main_arg13) = m ((c : Thread nD τ).loc main_arg13) := by
  show StableHlo.after hostOps1 (W2 m ρ c) (Proc.devRef .tc main_arg13) = _
  after_results
  exact w2_arg13 m ρ c
theorem w4_arg3 (c : Dev nD) : W4 m ρ c (Proc.devRef .tc main_arg3) = m ((c : Thread nD τ).loc main_arg3) :=
  (W4_of_ne m ρ c main_arg3 (by decide)).trans (w3_arg3 m ρ c)
theorem w4_arg10 (c : Dev nD) : W4 m ρ c (Proc.devRef .tc main_arg10) = m ((c : Thread nD τ).loc main_arg10) :=
  (W4_of_ne m ρ c main_arg10 (by decide)).trans (w3_arg10 m ρ c)
theorem w4_arg11 (c : Dev nD) : W4 m ρ c (Proc.devRef .tc main_arg11) = m ((c : Thread nD τ).loc main_arg11) :=
  (W4_of_ne m ρ c main_arg11 (by decide)).trans (w3_arg11 m ρ c)
theorem w4_arg12 (c : Dev nD) : W4 m ρ c (Proc.devRef .tc main_arg12) = m ((c : Thread nD τ).loc main_arg12) :=
  (W4_of_ne m ρ c main_arg12 (by decide)).trans (w3_arg12 m ρ c)
theorem w4_arg13 (c : Dev nD) : W4 m ρ c (Proc.devRef .tc main_arg13) = m ((c : Thread nD τ).loc main_arg13) :=
  (W4_of_ne m ρ c main_arg13 (by decide)).trans (w3_arg13 m ρ c)

/-! ## The first host stretch -/

theorem w1_gathered (c : Dev nD) : W1 m ρ c (Proc.devRef .tc main_v10) = gatherSource (F := Ideal) (m ((c : Thread nD τ).loc main_arg0)) (m ((c : Thread nD τ).loc main_arg1)) := by
  show StableHlo.after hostOps0 (W0 m ρ c) (Proc.devRef .tc main_v10) = _
  after_results
  rfl

theorem w1_targets (c : Dev nD) : W1 m ρ c (Proc.devRef .tc main_v3) = indexRow1 (F := Ideal) (m ((c : Thread nD τ).loc main_arg0)) := by
  show StableHlo.after hostOps0 (W0 m ρ c) (Proc.devRef .tc main_v3) = _
  after_results
  rfl

theorem w1_top (c : Dev nD) : W1 m ρ c (Proc.devRef .tc main_v11) = topRows (m ((c : Thread nD τ).loc main_arg4)) := by
  show StableHlo.after hostOps0 (W0 m ρ c) (Proc.devRef .tc main_v11) = _
  after_results
  exact slice_top _

theorem w1_bottom (c : Dev nD) : W1 m ρ c (Proc.devRef .tc main_v12) = bottomRows (m ((c : Thread nD τ).loc main_arg4)) := by
  show StableHlo.after hostOps0 (W0 m ρ c) (Proc.devRef .tc main_v12) = _
  after_results
  exact slice_bottom _

theorem w1_bias (c : Dev nD) : W1 m ρ c (Proc.devRef .tc main_v13) = asRow (m ((c : Thread nD τ).loc main_arg5)) := by
  show StableHlo.after hostOps0 (W0 m ρ c) (Proc.devRef .tc main_v13) = _
  after_results
  exact reshape_row10 _

/-! ## The edge kernel's output array -/

theorem w2_messages (c : Dev nD) : W2 m ρ c (Proc.devRef .tc main_v14)
    = edgeMsg (n := 3200000) (gatherSource (F := Ideal) (m ((c : Thread nD τ).loc main_arg0)) (m ((c : Thread nD τ).loc main_arg1))) (m ((c : Thread nD τ).loc main_arg2))
        (topRows (m ((c : Thread nD τ).loc main_arg4))) (bottomRows (m ((c : Thread nD τ).loc main_arg4))) (asRow (m ((c : Thread nD τ).loc main_arg5))) := by
  refine (W2_arr m ρ c 5).trans ?_
  rw [edge_final (V1 m ρ) c]
  show edgeMsg (n := 3200000) (W1 m ρ c (Proc.devRef .tc main_v10)) (W1 m ρ c (Proc.devRef .tc main_arg2))
    (W1 m ρ c (Proc.devRef .tc main_v11)) (W1 m ρ c (Proc.devRef .tc main_v12)) (W1 m ρ c (Proc.devRef .tc main_v13)) = _
  rw [w1_gathered, w1_arg2, w1_top, w1_bottom, w1_bias]

/-! ## The second host stretch -/

theorem w3_aggregated (c : Dev nD) : W3 m ρ c (Proc.devRef .tc main_v17)
    = aggregate (F := Ideal) (targetColumn (F := Ideal) (m ((c : Thread nD τ).loc main_arg0)))
        (edgeMsg (n := 3200000) (gatherSource (F := Ideal) (m ((c : Thread nD τ).loc main_arg0)) (m ((c : Thread nD τ).loc main_arg1))) (m ((c : Thread nD τ).loc main_arg2))
          (topRows (m ((c : Thread nD τ).loc main_arg4))) (bottomRows (m ((c : Thread nD τ).loc main_arg4))) (asRow (m ((c : Thread nD τ).loc main_arg5)))) := by
  show StableHlo.after hostOps1 (W2 m ρ c) (Proc.devRef .tc main_v17) = _
  after_results
  rw [w2_messages, W2_of_ne m ρ c main_v3 (by decide), w1_targets]
  rfl

theorem w3_bias1 (c : Dev nD) : W3 m ρ c (Proc.devRef .tc main_v18) = asRow (m ((c : Thread nD τ).loc main_arg7)) := by
  show StableHlo.after hostOps1 (W2 m ρ c) (Proc.devRef .tc main_v18) = _
  after_results
  rw [w2_arg7]
  exact reshape_row10 _

theorem w3_bias2 (c : Dev nD) : W3 m ρ c (Proc.devRef .tc main_v19) = asRow (m ((c : Thread nD τ).loc main_arg9)) := by
  show StableHlo.after hostOps1 (W2 m ρ c) (Proc.devRef .tc main_v19) = _
  after_results
  rw [w2_arg9]
  exact reshape_row5 _

/-! ## The node kernel's output array -/

theorem w4_nodes (c : Dev nD) : W4 m ρ c (Proc.devRef .tc main_v20)
    = nodeMlp (n := 100000)
        (aggregate (F := Ideal) (targetColumn (F := Ideal) (m ((c : Thread nD τ).loc main_arg0)))
          (edgeMsg (n := 3200000) (gatherSource (F := Ideal) (m ((c : Thread nD τ).loc main_arg0)) (m ((c : Thread nD τ).loc main_arg1))) (m ((c : Thread nD τ).loc main_arg2))
            (topRows (m ((c : Thread nD τ).loc main_arg4))) (bottomRows (m ((c : Thread nD τ).loc main_arg4))) (asRow (m ((c : Thread nD τ).loc main_arg5)))))
        (m ((c : Thread nD τ).loc main_arg6)) (asRow (m ((c : Thread nD τ).loc main_arg7))) (m ((c : Thread nD τ).loc main_arg8)) (asRow (m ((c : Thread nD τ).loc main_arg9))) := by
  refine (W4_arr m ρ c 5).trans ?_
  rw [node_final (V3 m ρ) c]
  show nodeMlp (n := 100000) (W3 m ρ c (Proc.devRef .tc main_v17)) (W3 m ρ c (Proc.devRef .tc main_arg6))
    (W3 m ρ c (Proc.devRef .tc main_v18)) (W3 m ρ c (Proc.devRef .tc main_arg8)) (W3 m ρ c (Proc.devRef .tc main_v19)) = _
  rw [w3_aggregated, w3_arg6, w3_bias1, w3_arg8, w3_bias2]

/-! ## The result -/

/-- The last host stretch, from any contents: its result is the readout of the node kernel's output array and of five
    arguments, as that stretch finds them. -/
theorem readout_fold (Wv : Valuation τ sig (Elt Ideal)) :
    StableHlo.after (hostOps2 (F := Ideal)) Wv (Proc.devRef .tc main_v32)
      = readout (F := Ideal) (Wv (Proc.devRef .tc main_v20)) (Wv (Proc.devRef .tc main_arg3))
          (Wv (Proc.devRef .tc main_arg10)) (Wv (Proc.devRef .tc main_arg11))
          (Wv (Proc.devRef .tc main_arg12)) (Wv (Proc.devRef .tc main_arg13)) := by
  after_results_simp
  rfl

/-- The result buffer at the last boundary is the network of the launch arrays. -/
theorem result_is_network (c : Dev nD) : W5 m ρ c (Proc.devRef .tc main_v32) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps2 (W4 m ρ c) (Proc.devRef .tc main_v32) = _
  rw [readout_fold, w4_nodes, w4_arg3, w4_arg10, w4_arg11, w4_arg12, w4_arg13]
  rfl

end Cert.GraphNet

end
-- ==== Proof.RefNetwork.lean ====
/-
  The reference's result is the network of its arguments.

  The reference applies, in order: the gather of the node features at the wrapped source indices; the edge message
  written as ONE 32-term product — the gathered features and the edge features joined side by side, times the whole
  32 × 10 weight matrix — plus the bias, then tanh; the scatter-add at the target indices; the node update written as
  two dense layers; the scatter-add into graphs and the readout. The gather, the scatter-adds and the readout are the
  named functions of HostStages, letter for letter. The node update is the Spec map entry by entry. The edge message is
  the Spec map because a sum over 32 = 16 + 16 terms is the sum over the first 16 plus the sum over the last 16
  (addition on the extended reals is associative and commutative, so no finiteness is used): on the first 16 columns
  the joined array is the gathered features and the weight rows are the top rows, on the last 16 it is the edge
  features and the bottom rows.
-/
import proofs.«159990_j64630667870284_2_alg».proof.Proof.Gen.ReferenceIdeal.Read
import proofs.«159990_j64630667870284_2_alg».proof.Proof.HostStages

noncomputable section

namespace Cert.GraphNet

open Idealize.ShloMosaic Idealize.ShloMosaic.ValueIdx
open Cert.ReferenceIdeal.Read

variable (x0 : (⟨Cert.ReferenceIdeal.S2x3200000, .i32⟩ : BufTy).Contents (Elt Ideal)) (x1 : (⟨Cert.ReferenceIdeal.S100000x16, .f32⟩ : BufTy).Contents (Elt Ideal)) (x2 : (⟨Cert.ReferenceIdeal.S3200000x16, .f32⟩ : BufTy).Contents (Elt Ideal)) (x3 : (⟨Cert.ReferenceIdeal.S100000, .i32⟩ : BufTy).Contents (Elt Ideal)) (x4 : (⟨Cert.ReferenceIdeal.S32x10, .f32⟩ : BufTy).Contents (Elt Ideal)) (x5 : (⟨Cert.ReferenceIdeal.S10, .f32⟩ : BufTy).Contents (Elt Ideal)) (x6 : (⟨Cert.ReferenceIdeal.S10x10, .f32⟩ : BufTy).Contents (Elt Ideal)) (x7 : (⟨Cert.ReferenceIdeal.S10, .f32⟩ : BufTy).Contents (Elt Ideal)) (x8 : (⟨Cert.ReferenceIdeal.S10x5, .f32⟩ : BufTy).Contents (Elt Ideal)) (x9 : (⟨Cert.ReferenceIdeal.S5, .f32⟩ : BufTy).Contents (Elt Ideal)) (x10 : (⟨Cert.ReferenceIdeal.S5x5, .f32⟩ : BufTy).Contents (Elt Ideal)) (x11 : (⟨Cert.ReferenceIdeal.S5, .f32⟩ : BufTy).Contents (Elt Ideal)) (x12 : (⟨Cert.ReferenceIdeal.S5x1, .f32⟩ : BufTy).Contents (Elt Ideal)) (x13 : (⟨Cert.ReferenceIdeal.S1, .f32⟩ : BufTy).Contents (Elt Ideal))

/-- The reference's gathered features are the gathered features. -/
theorem ref_gather : val_main_v10 (F := Ideal) x0 x1 = gatherSource (F := Ideal) x0 x1 := rfl

/-- The reference's target column is the target column. -/
theorem ref_targets : val_main_v18 (F := Ideal) x0 = targetColumn (F := Ideal) x0 := rfl

/-- The reference's aggregation is the aggregation of its messages at its target column. -/
theorem ref_aggregate : val_main_v19 (F := Ideal) x0 x1 x2 x4 x5
    = aggregate (F := Ideal) (val_main_v18 (F := Ideal) x0) (val_main_v16 (F := Ideal) x0 x1 x2 x4 x5) := rfl

/-- The reference's result is the readout of its node results. -/
theorem ref_readout : val_main_v41 (F := Ideal) x0 x1 x2 x3 x4 x5 x6 x7 x8 x9 x10 x11 x12 x13
    = readout (F := Ideal) (val_main_v29 (F := Ideal) x0 x1 x2 x4 x5 x6 x7 x8 x9) x3 x10 x11 x12 x13 := rfl

/-- The reference's messages are the edge-message map of the gathered features, the edge features, the two halves of
    the weight matrix and the bias as a row. -/
theorem ref_edge : val_main_v16 (F := Ideal) x0 x1 x2 x4 x5
    = edgeMsg (n := 3200000) (val_main_v10 (F := Ideal) x0 x1) x2 (topRows x4) (bottomRows x4) (asRow x5) := by
  funext i
  obtain ⟨r, e, rfl⟩ : ∃ (r : Fin 3200000) (e : Fin 10), i = ix2 r e := ⟨i 0, i 1, eq_ix2 i⟩
  rw [edgeMsg_ix2, val_main_v16_apply, val_main_v15_apply, val_main_v12_apply, val_main_v14_apply, val_main_v13_apply]
  unfold edgeMsgAt
  show Ideal.tanh ((∑ k : Fin 32, val_main_v11 (F := Ideal) x0 x1 x2 (lidx_main_v12 (ix2 r e) k) * x4 (ridx_main_v12 (ix2 r e) k))
    + x5 (idx_main_v13 (idx_main_v14 (ix2 r e)))) = _
  refine congrArg Ideal.tanh (congrArg₂ (· + ·) ?_ ?_)
  · refine (Fin.sum_univ_add (a := 16) (b := 16)
      (fun k : Fin 32 => val_main_v11 (F := Ideal) x0 x1 x2 (lidx_main_v12 (ix2 r e) k) * x4 (ridx_main_v12 (ix2 r e) k))).trans ?_
    refine congrArg₂ (· + ·) (Finset.sum_congr rfl fun k _ => ?_) (Finset.sum_congr rfl fun k _ => ?_)
    · show val_main_v11 (F := Ideal) x0 x1 x2 (lidx_main_v12 (ix2 r e) (Fin.castAdd 16 k)) * x4 (ridx_main_v12 (ix2 r e) (Fin.castAdd 16 k)) = _
      refine congrArg₂ (· * ·) ?_ ?_
      · unfold val_main_v11
        refine concatenate_pair_apply_left (1 : Fin 2) (val_main_v10 (F := Ideal) x0 x1) x2 _ (lidx_main_v12 (ix2 r e) (Fin.castAdd 16 k)) rfl (ix2 r k) ?_
        intro b
        match b with
        | ⟨0, _⟩ => rfl
        | ⟨1, _⟩ => rfl
      · unfold topRows
        exact congrArg x4 (funext fun a => Fin.ext (by
          match a with
          | ⟨0, _⟩ => rfl
          | ⟨1, _⟩ => rfl))
    · show val_main_v11 (F := Ideal) x0 x1 x2 (lidx_main_v12 (ix2 r e) (Fin.natAdd 16 k)) * x4 (ridx_main_v12 (ix2 r e) (Fin.natAdd 16 k)) = _
      refine congrArg₂ (· * ·) ?_ ?_
      · unfold val_main_v11
        refine concatenate_pair_apply_right (1 : Fin 2) (val_main_v10 (F := Ideal) x0 x1) x2 _ (lidx_main_v12 (ix2 r e) (Fin.natAdd 16 k)) rfl rfl (ix2 r k) ?_ ?_
        · intro b hb
          match b, hb with
          | ⟨0, _⟩, _ => rfl
          | ⟨1, _⟩, hb => exact absurd rfl hb
        · show k.val + 16 = 16 + k.val
          omega
      · unfold bottomRows
        exact congrArg x4 (funext fun a => Fin.ext (by
          match a with
          | ⟨0, _⟩ => rfl
          | ⟨1, _⟩ => rfl))
  · unfold asRow
    exact congrArg x5 (funext fun a => Fin.ext (by
      match a with
      | ⟨0, _⟩ => rfl))

/-- The reference's node results are the node-update map of its aggregated messages, the two weight matrices and
    the two biases as rows. -/
theorem ref_node : val_main_v29 (F := Ideal) x0 x1 x2 x4 x5 x6 x7 x8 x9
    = nodeMlp (n := 100000) (val_main_v19 (F := Ideal) x0 x1 x2 x4 x5) x6 (asRow x7) x8 (asRow x9) := by
  funext i
  obtain ⟨r, e, rfl⟩ : ∃ (r : Fin 100000) (e : Fin 5), i = ix2 r e := ⟨i 0, i 1, eq_ix2 i⟩
  rw [nodeMlp_ix2, val_main_v29_apply, val_main_v28_apply, val_main_v25_apply, val_main_v27_apply, val_main_v26_apply]
  unfold nodeMlpAt
  simp only [Ideal.hostUnary_tanh_def, Ideal.addf_def]
  refine congrArg Ideal.tanh (congrArg₂ (· + ·) (Finset.sum_congr rfl fun j _ => ?_) ?_)
  · refine congrArg₂ (· * ·) ?_ ?_
    · have hl : lidx_main_v25 (ix2 r e) j = ix2 r j := funext fun a => Fin.ext (by
        match a with
        | ⟨0, _⟩ => rfl
        | ⟨1, _⟩ => rfl)
      rw [hl, val_main_v24_apply, val_main_v23_apply, val_main_v20_apply, val_main_v22_apply, val_main_v21_apply]
      unfold hiddenAt
      simp only [Ideal.hostUnary_tanh_def, Ideal.addf_def]
      refine congrArg Ideal.tanh (congrArg₂ (· + ·) (Finset.sum_congr rfl fun k _ => ?_) ?_)
      · refine congrArg₂ (· * ·) ?_ ?_
        · exact congrArg (val_main_v19 (F := Ideal) x0 x1 x2 x4 x5) (funext fun a => Fin.ext (by
            match a with
            | ⟨0, _⟩ => rfl
            | ⟨1, _⟩ => rfl))
        · exact congrArg x6 (funext fun a => Fin.ext (by
            match a with
            | ⟨0, _⟩ => rfl
            | ⟨1, _⟩ => rfl))
      · unfold asRow
        exact congrArg x7 (funext fun a => Fin.ext (by
          match a with
          | ⟨0, _⟩ => rfl))
    · exact congrArg x8 (funext fun a => Fin.ext (by
        match a with
        | ⟨0, _⟩ => rfl
        | ⟨1, _⟩ => rfl))
  · unfold asRow
    exact congrArg x9 (funext fun a => Fin.ext (by
      match a with
      | ⟨0, _⟩ => rfl))

/-- The reference's result is the network of its arguments. -/
theorem ref_network : val_main_v41 (F := Ideal) x0 x1 x2 x3 x4 x5 x6 x7 x8 x9 x10 x11 x12 x13
    = network x0 x1 x2 x3 x4 x5 x6 x7 x8 x9 x10 x11 x12 x13 := by
  rw [ref_readout, ref_node, ref_aggregate, ref_targets, ref_edge, ref_gather]
  rfl

end Cert.GraphNet

end
-- ==== Proof.lean ====
/-
  The certificate of a two-kernel graph network against its plain reference.

  Both programs gather the source-node features of every edge, form a per-edge message, sum the messages into their
  target nodes, update every node by a two-layer map, sum the nodes into their graphs and apply a two-layer readout.
  They differ in two places only. The edge message is tanh(concat(nf, ea) · W + b) in the reference and
  tanh(nf · W_top + ea · W_bottom + b) in the kernel, computed 6400 edges at a time; the node update is
  tanh(tanh(x · W1 + b1) · W2 + b2) in both, computed in the kernel 10000 nodes at a time. On the extended reals a sum
  over 32 terms is the sum over its first 16 plus the sum over its last 16, a change of float format is the identity,
  and a row of either map reads one row of its row-indexed inputs, so the tiled kernels compute the whole-array maps.
  Everything else — the gather, the two scatter-adds, the readout — is the same host operations applied to values
  shown equal, and is never opened. No finiteness of the inputs is used.

  * frames: generated for the two kernel programs; the reference's is its generated run with the result dropped.
  * preserves: the idealization rewrote nothing.
  * algebraic: both runs end with the result at `network` of the argument arrays (KernelValue over KernelRun for the
    kernel, RefNetwork over the generated run for the reference).
-/
import proofs.«159990_j64630667870284_2_alg».proof.Defs
import proofs.«159990_j64630667870284_2_alg».proof.Proof.Gen.Kernel
import proofs.«159990_j64630667870284_2_alg».proof.Proof.Gen.Kernel.Frame
import proofs.«159990_j64630667870284_2_alg».proof.Proof.Gen.KernelIdeal
import proofs.«159990_j64630667870284_2_alg».proof.Proof.Gen.KernelIdeal.Frame
import proofs.«159990_j64630667870284_2_alg».proof.Proof.Gen.ReferenceIdeal
import proofs.«159990_j64630667870284_2_alg».proof.Proof.Gen.ReferenceIdeal.Run
import proofs.«159990_j64630667870284_2_alg».proof.Proof.Gen.ReferenceIdeal.Read
import proofs.«159990_j64630667870284_2_alg».proof.Proof.Gen.Pre_finite_inputs
import proofs.«159990_j64630667870284_2_alg».proof.Proof.KernelRun
import proofs.«159990_j64630667870284_2_alg».proof.Proof.KernelValue
import proofs.«159990_j64630667870284_2_alg».proof.Proof.RefNetwork
import Idealize.ShloMosaic.Adequacy
import Idealize.ShloMosaic.Init

noncomputable section

namespace Cert.Proof

open Idealize.ShloMosaic Idealize.ShloMosaic.TcCoe Idealize.SL.Sem Cert.GraphNet

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, from memories that agree on the arguments, end with the result at the network of the
    argument arrays. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (result_is_network m ρ c), (h c).2⟩) (run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v41_eq, ref_network, h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
